-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x1x28x28 : Shape := ⟨4, ![200, 1, 28, 28]⟩
abbrev S200x5 : Shape := ⟨2, ![200, 5]⟩
abbrev S200x1 : Shape := ⟨2, ![200, 1]⟩
abbrev S1x133x256x384 : Shape := ⟨4, ![1, 133, 256, 384]⟩
abbrev S_ : Shape := ⟨0, ![]⟩

class Facts : Prop where
  bcast_S_S200x1x28x28 : S_.BroadcastsInDim S200x1x28x28 (![] : Fin 0 → Fin S200x1x28x28.rank)
  reducesTo_S200x1x28x28_S_d0_1_2_3 : S200x1x28x28.ReducesTo [0, 1, 2, 3] S_
  h_S_ : 0 < S_.numel
  bcast_S_S200x5 : S_.BroadcastsInDim S200x5 (![] : Fin 0 → Fin S200x5.rank)
  reducesTo_S200x5_S_d0_1 : S200x5.ReducesTo [0, 1] S_
  bcast_S_S1x133x256x384 : S_.BroadcastsInDim S1x133x256x384 (![] : Fin 0 → Fin S1x133x256x384.rank)
  reducesTo_S1x133x256x384_S_d0_1_2_3 : S1x133x256x384.ReducesTo [0, 1, 2, 3] S_

variable [Facts]

def fn {F : FTy → Type} [FloatOps F] (main_arg0 : FVec F S200x1x28x28 .f32) (main_arg1 : FVec F S200x5 .f32) (main_arg2 : IVec S200x1 32) (main_arg3 : FVec F S1x133x256x384 .f32) : IVec S_ 1 :=
  let main_v0 : FVec F S200x1x28x28 .f32 := Host.absf main_arg0
  let main_cst : FVec F S_ .f32 := constant S_ .f32 0x7F800000#32
  let main_v1 : FVec F S200x1x28x28 .f32 := broadcastInDim S200x1x28x28 ![] bcast_S_S200x1x28x28 main_cst
  let main_v2 : IVec S200x1x28x28 1 := cmpf .olt main_v0 main_v1
  let main_c : IVec S_ 1 := constantI S_ 1 1#1
  let main_v3 : IVec S_ 1 := (fun x v => Host.reduce IntOp.andi x v reducesTo_S200x1x28x28_S_d0_1_2_3 h_S_) main_v2 main_c
  let main_v4 : FVec F S200x5 .f32 := Host.absf main_arg1
  let main_cst_0 : FVec F S_ .f32 := constant S_ .f32 0x7F800000#32
  let main_v5 : FVec F S200x5 .f32 := broadcastInDim S200x5 ![] bcast_S_S200x5 main_cst_0
  let main_v6 : IVec S200x5 1 := cmpf .olt main_v4 main_v5
  let main_c_1 : IVec S_ 1 := constantI S_ 1 1#1
  let main_v7 : IVec S_ 1 := (fun x v => Host.reduce IntOp.andi x v reducesTo_S200x5_S_d0_1 h_S_) main_v6 main_c_1
  let main_v8 : IVec S_ 1 := andi main_v3 main_v7
  let main_v9 : FVec F S1x133x256x384 .f32 := Host.absf main_arg3
  let main_cst_2 : FVec F S_ .f32 := constant S_ .f32 0x7F800000#32
  let main_v10 : FVec F S1x133x256x384 .f32 := broadcastInDim S1x133x256x384 ![] bcast_S_S1x133x256x384 main_cst_2
  let main_v11 : IVec S1x133x256x384 1 := cmpf .olt main_v9 main_v10
  let main_c_3 : IVec S_ 1 := constantI S_ 1 1#1
  let main_v12 : IVec S_ 1 := (fun x v => Host.reduce IntOp.andi x v reducesTo_S1x133x256x384_S_d0_1_2_3 h_S_) main_v11 main_c_3
  let main_v13 : IVec S_ 1 := andi main_v8 main_v12
  main_v13
-- ==== Kernel.lean ====
abbrev S200x1x28x28 : Shape := ⟨4, ![200, 1, 28, 28]⟩
abbrev S200x5 : Shape := ⟨2, ![200, 5]⟩
abbrev S200x1 : Shape := ⟨2, ![200, 1]⟩
abbrev S1x133x256x384 : Shape := ⟨4, ![1, 133, 256, 384]⟩
abbrev S200x4 : Shape := ⟨2, ![200, 4]⟩
abbrev S_ : Shape := ⟨0, ![]⟩
abbrev S200 : Shape := ⟨1, ![200]⟩
abbrev S256 : Shape := ⟨1, ![256]⟩
abbrev S384 : Shape := ⟨1, ![384]⟩
abbrev S1x256 : Shape := ⟨2, ![1, 256]⟩
abbrev S200x256 : Shape := ⟨2, ![200, 256]⟩
abbrev S1x384 : Shape := ⟨2, ![1, 384]⟩
abbrev S200x384 : Shape := ⟨2, ![200, 384]⟩
abbrev S28 : Shape := ⟨1, ![28]⟩
abbrev S1x1x28 : Shape := ⟨3, ![1, 1, 28]⟩
abbrev S200x256x1 : Shape := ⟨3, ![200, 256, 1]⟩
abbrev S200x256x28 : Shape := ⟨3, ![200, 256, 28]⟩
abbrev S200x384x1 : Shape := ⟨3, ![200, 384, 1]⟩
abbrev S200x384x28 : Shape := ⟨3, ![200, 384, 28]⟩
abbrev S200x28x28 : Shape := ⟨3, ![200, 28, 28]⟩
abbrev S200x256x384 : Shape := ⟨3, ![200, 256, 384]⟩
abbrev S20x28x28 : Shape := ⟨3, ![20, 28, 28]⟩
abbrev S20x256x28 : Shape := ⟨3, ![20, 256, 28]⟩
abbrev S20x384x28 : Shape := ⟨3, ![20, 384, 28]⟩
abbrev S20x256x384 : Shape := ⟨3, ![20, 256, 384]⟩
abbrev S1x200x256x384 : Shape := ⟨4, ![1, 200, 256, 384]⟩

abbrev nBuf : Space → Nat
  | .hbm => 205
  | .vmem => 8
  | .smem => 0
  | _ => 0

abbrev hbmTy0_0 (i : Nat) : BufTy := match i % 128 with
  | 0 => ⟨S200x1x28x28, .f32⟩
  | 1 => ⟨S200x5, .f32⟩
  | 2 => ⟨S200x1, .i32⟩
  | 3 => ⟨S1x133x256x384, .f32⟩
  | 4 => ⟨S200x4, .f32⟩
  | 5 => ⟨S_, .f32⟩
  | 6 => ⟨S200x4, .f32⟩
  | 7 => ⟨S200x4, .f32⟩
  | 8 => ⟨S200x4, .i32⟩
  | 9 => ⟨S200x1, .i32⟩
  | 10 => ⟨S200, .i32⟩
  | 11 => ⟨S200x1, .i32⟩
  | 12 => ⟨S200, .i32⟩
  | 13 => ⟨S200x1, .i32⟩
  | 14 => ⟨S200, .i32⟩
  | 15 => ⟨S200x1, .i32⟩
  | 16 => ⟨S200, .i32⟩
  | 17 => ⟨S200, .i32⟩
  | 18 => ⟨S_, .i32⟩
  | 19 => ⟨S200, .i32⟩
  | 20 => ⟨S200, .i32⟩
  | 21 => ⟨S_, .i32⟩
  | 22 => ⟨S200, .i32⟩
  | 23 => ⟨S200, .i32⟩
  | 24 => ⟨S200, .f32⟩
  | 25 => ⟨S200, .i32⟩
  | 26 => ⟨S_, .i32⟩
  | 27 => ⟨S200, .i32⟩
  | 28 => ⟨S200, .i32⟩
  | 29 => ⟨S_, .i32⟩
  | 30 => ⟨S200, .i32⟩
  | 31 => ⟨S200, .i32⟩
  | 32 => ⟨S200, .f32⟩
  | 33 => ⟨S256, .i32⟩
  | 34 => ⟨S384, .i32⟩
  | 35 => ⟨S1x256, .i32⟩
  | 36 => ⟨S200x1, .i32⟩
  | 37 => ⟨S200x256, .i32⟩
  | 38 => ⟨S200x256, .i32⟩
  | 39 => ⟨S200x256, .i32⟩
  | 40 => ⟨S200x256, .f32⟩
  | 41 => ⟨S1x384, .i32⟩
  | 42 => ⟨S200x1, .i32⟩
  | 43 => ⟨S200x384, .i32⟩
  | 44 => ⟨S200x384, .i32⟩
  | 45 => ⟨S200x384, .i32⟩
  | 46 => ⟨S200x384, .f32⟩
  | 47 => ⟨S_, .f32⟩
  | 48 => ⟨S200x256, .f32⟩
  | 49 => ⟨S200x256, .f32⟩
  | 50 => ⟨S200x1, .f32⟩
  | 51 => ⟨S_, .f32⟩
  | 52 => ⟨S200x1, .f32⟩
  | 53 => ⟨S200x1, .f32⟩
  | 54 => ⟨S200x256, .f32⟩
  | 55 => ⟨S200x256, .f32⟩
  | 56 => ⟨S_, .f32⟩
  | 57 => ⟨S200x256, .f32⟩
  | 58 => ⟨S200x256, .f32⟩
  | 59 => ⟨S_, .f32⟩
  | 60 => ⟨S200x256, .f32⟩
  | 61 => ⟨S200x256, .f32⟩
  | 62 => ⟨S_, .f32⟩
  | 63 => ⟨S200x384, .f32⟩
  | 64 => ⟨S200x384, .f32⟩
  | 65 => ⟨S200x1, .f32⟩
  | 66 => ⟨S_, .f32⟩
  | 67 => ⟨S200x1, .f32⟩
  | 68 => ⟨S200x1, .f32⟩
  | 69 => ⟨S200x384, .f32⟩
  | 70 => ⟨S200x384, .f32⟩
  | 71 => ⟨S_, .f32⟩
  | 72 => ⟨S200x384, .f32⟩
  | 73 => ⟨S200x384, .f32⟩
  | 74 => ⟨S_, .f32⟩
  | 75 => ⟨S200x384, .f32⟩
  | 76 => ⟨S200x384, .f32⟩
  | 77 => ⟨S200x256, .f32⟩
  | 78 => ⟨S_, .i32⟩
  | 79 => ⟨S_, .i32⟩
  | 80 => ⟨S_, .f32⟩
  | 81 => ⟨S200x256, .f32⟩
  | 82 => ⟨S200x256, .f32⟩
  | 83 => ⟨S_, .f32⟩
  | 84 => ⟨S200x256, .f32⟩
  | 85 => ⟨S200x256, .f32⟩
  | 86 => ⟨S200x256, .i32⟩
  | 87 => ⟨S200x384, .f32⟩
  | 88 => ⟨S_, .i32⟩
  | 89 => ⟨S_, .i32⟩
  | 90 => ⟨S_, .f32⟩
  | 91 => ⟨S200x384, .f32⟩
  | 92 => ⟨S200x384, .f32⟩
  | 93 => ⟨S_, .f32⟩
  | 94 => ⟨S200x384, .f32⟩
  | 95 => ⟨S200x384, .f32⟩
  | 96 => ⟨S200x384, .i32⟩
  | 97 => ⟨S_, .i32⟩
  | 98 => ⟨S200x256, .i32⟩
  | 99 => ⟨S200x256, .i32⟩
  | 100 => ⟨S_, .i32⟩
  | 101 => ⟨S200x256, .i32⟩
  | 102 => ⟨S200x256, .i32⟩
  | 103 => ⟨S_, .i32⟩
  | 104 => ⟨S200x384, .i32⟩
  | 105 => ⟨S200x384, .i32⟩
  | 106 => ⟨S_, .i32⟩
  | 107 => ⟨S200x384, .i32⟩
  | 108 => ⟨S200x384, .i32⟩
  | 109 => ⟨S200x256, .f32⟩
  | 110 => ⟨S200x256, .f32⟩
  | 111 => ⟨S200x384, .f32⟩
  | 112 => ⟨S200x384, .f32⟩
  | 113 => ⟨S1x256, .i32⟩
  | 114 => ⟨S_, .i32⟩
  | 115 => ⟨S200, .i32⟩
  | 116 => ⟨S200, .i32⟩
  | 117 => ⟨S200x1, .i32⟩
  | 118 => ⟨S200x256, .i32⟩
  | 119 => ⟨S200x256, .i32⟩
  | 120 => ⟨S200x256, .i1⟩
  | 121 => ⟨S1x256, .i32⟩
  | 122 => ⟨S_, .i32⟩
  | 123 => ⟨S200, .i32⟩
  | 124 => ⟨S200, .i32⟩
  | 125 => ⟨S200x1, .i32⟩
  | 126 => ⟨S200x256, .i32⟩
  | 127 => ⟨S200x256, .i32⟩
  | _ => ⟨S200x1x28x28, .f32⟩

abbrev hbmTy0_1 (i : Nat) : BufTy := match i % 128 with
  | 0 => ⟨S200x256, .i1⟩
  | 1 => ⟨S200x256, .i1⟩
  | 2 => ⟨S1x384, .i32⟩
  | 3 => ⟨S_, .i32⟩
  | 4 => ⟨S200, .i32⟩
  | 5 => ⟨S200, .i32⟩
  | 6 => ⟨S200x1, .i32⟩
  | 7 => ⟨S200x384, .i32⟩
  | 8 => ⟨S200x384, .i32⟩
  | 9 => ⟨S200x384, .i1⟩
  | 10 => ⟨S1x384, .i32⟩
  | 11 => ⟨S_, .i32⟩
  | 12 => ⟨S200, .i32⟩
  | 13 => ⟨S200, .i32⟩
  | 14 => ⟨S200x1, .i32⟩
  | 15 => ⟨S200x384, .i32⟩
  | 16 => ⟨S200x384, .i32⟩
  | 17 => ⟨S200x384, .i1⟩
  | 18 => ⟨S200x384, .i1⟩
  | 19 => ⟨S28, .i32⟩
  | 20 => ⟨S1x1x28, .i32⟩
  | 21 => ⟨S200x256x1, .i32⟩
  | 22 => ⟨S200x256x28, .i32⟩
  | 23 => ⟨S200x256x28, .i32⟩
  | 24 => ⟨S200x256x28, .i1⟩
  | 25 => ⟨S200x256x28, .f32⟩
  | 26 => ⟨S1x1x28, .i32⟩
  | 27 => ⟨S200x256x1, .i32⟩
  | 28 => ⟨S200x256x28, .i32⟩
  | 29 => ⟨S200x256x28, .i32⟩
  | 30 => ⟨S200x256x28, .i1⟩
  | 31 => ⟨S200x256x28, .f32⟩
  | 32 => ⟨S_, .f32⟩
  | 33 => ⟨S200x256, .f32⟩
  | 34 => ⟨S200x256, .f32⟩
  | 35 => ⟨S200x256x1, .f32⟩
  | 36 => ⟨S200x256x28, .f32⟩
  | 37 => ⟨S200x256x28, .f32⟩
  | 38 => ⟨S200x256x1, .f32⟩
  | 39 => ⟨S200x256x28, .f32⟩
  | 40 => ⟨S200x256x28, .f32⟩
  | 41 => ⟨S200x256x28, .f32⟩
  | 42 => ⟨S200x256x1, .i1⟩
  | 43 => ⟨S200x256x1, .f32⟩
  | 44 => ⟨S200x256x28, .f32⟩
  | 45 => ⟨S200x256x28, .f32⟩
  | 46 => ⟨S1x1x28, .i32⟩
  | 47 => ⟨S200x384x1, .i32⟩
  | 48 => ⟨S200x384x28, .i32⟩
  | 49 => ⟨S200x384x28, .i32⟩
  | 50 => ⟨S200x384x28, .i1⟩
  | 51 => ⟨S200x384x28, .f32⟩
  | 52 => ⟨S1x1x28, .i32⟩
  | 53 => ⟨S200x384x1, .i32⟩
  | 54 => ⟨S200x384x28, .i32⟩
  | 55 => ⟨S200x384x28, .i32⟩
  | 56 => ⟨S200x384x28, .i1⟩
  | 57 => ⟨S200x384x28, .f32⟩
  | 58 => ⟨S_, .f32⟩
  | 59 => ⟨S200x384, .f32⟩
  | 60 => ⟨S200x384, .f32⟩
  | 61 => ⟨S200x384x1, .f32⟩
  | 62 => ⟨S200x384x28, .f32⟩
  | 63 => ⟨S200x384x28, .f32⟩
  | 64 => ⟨S200x384x1, .f32⟩
  | 65 => ⟨S200x384x28, .f32⟩
  | 66 => ⟨S200x384x28, .f32⟩
  | 67 => ⟨S200x384x28, .f32⟩
  | 68 => ⟨S200x384x1, .i1⟩
  | 69 => ⟨S200x384x1, .f32⟩
  | 70 => ⟨S200x384x28, .f32⟩
  | 71 => ⟨S200x384x28, .f32⟩
  | 72 => ⟨S200x256x28, .bf16⟩
  | 73 => ⟨S200x384x28, .bf16⟩
  | 74 => ⟨S200x28x28, .f32⟩
  | 75 => ⟨S200x256x384, .f32⟩
  | 76 => ⟨S1x200x256x384, .f32⟩
  | _ => ⟨S200x1x28x28, .f32⟩

abbrev hbmTy (i : Nat) : BufTy := match i / 128 with
  | 0 => hbmTy0_0 i
  | 1 => hbmTy0_1 i
  | _ => ⟨S200x1x28x28, .f32⟩

abbrev bufTy : (tb : Table) → Fin (tcTables nBuf tb) → BufTy
  | .hbm, ⟨i, _⟩ => hbmTy i
  | .local _ .vmem, ⟨0, _⟩ => ⟨S20x28x28, .f32⟩
  | .local _ .vmem, ⟨1, _⟩ => ⟨S20x28x28, .f32⟩
  | .local _ .vmem, ⟨2, _⟩ => ⟨S20x256x28, .bf16⟩
  | .local _ .vmem, ⟨3, _⟩ => ⟨S20x256x28, .bf16⟩
  | .local _ .vmem, ⟨4, _⟩ => ⟨S20x384x28, .bf16⟩
  | .local _ .vmem, ⟨5, _⟩ => ⟨S20x384x28, .bf16⟩
  | .local _ .vmem, ⟨6, _⟩ => ⟨S20x256x384, .f32⟩
  | .local _ .vmem, ⟨7, _⟩ => ⟨S20x256x384, .f32⟩
  | _, _ => ⟨S200x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_11 : Ref sig .tc := ⟨.hbm, 78, rfl⟩
abbrev main_c_12 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_c_14 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_19 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_20 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_21 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_23 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_24 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x256x28 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x384x28 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S200x5_S200x4_0_1 : S200x5.Slices ![0, 1] S200x4
  bcast_S_S200x4 : S_.BroadcastsInDim S200x4 (![] : Fin 0 → Fin S200x4.rank)
  slices_S200x4_S200x1_0_0 : S200x4.Slices ![0, 0] S200x1
  shapeCasts_S200x1_S200 : S200x1.ShapeCasts S200
  slices_S200x4_S200x1_0_1 : S200x4.Slices ![0, 1] S200x1
  slices_S200x4_S200x1_0_2 : S200x4.Slices ![0, 2] S200x1
  slices_S200x4_S200x1_0_3 : S200x4.Slices ![0, 3] S200x1
  bcast_S_S200 : S_.BroadcastsInDim S200 (![] : Fin 0 → Fin S200.rank)
  bcast_S256_S1x256_1 : S256.BroadcastsInDim S1x256 (![1] : Fin 1 → Fin S1x256.rank)
  bcast_S200_S200x1_0 : S200.BroadcastsInDim S200x1 (![0] : Fin 1 → Fin S200x1.rank)
  bcast_S1x256_S200x256_0_1 : S1x256.BroadcastsInDim S200x256 (![0, 1] : Fin 2 → Fin S200x256.rank)
  bcast_S200x1_S200x256_0_1 : S200x1.BroadcastsInDim S200x256 (![0, 1] : Fin 2 → Fin S200x256.rank)
  bcast_S384_S1x384_1 : S384.BroadcastsInDim S1x384 (![1] : Fin 1 → Fin S1x384.rank)
  bcast_S1x384_S200x384_0_1 : S1x384.BroadcastsInDim S200x384 (![0, 1] : Fin 2 → Fin S200x384.rank)
  bcast_S200x1_S200x384_0_1 : S200x1.BroadcastsInDim S200x384 (![0, 1] : Fin 2 → Fin S200x384.rank)
  bcast_S_S200x256 : S_.BroadcastsInDim S200x256 (![] : Fin 0 → Fin S200x256.rank)
  bcast_S_S200x1 : S_.BroadcastsInDim S200x1 (![] : Fin 0 → Fin S200x1.rank)
  bcast_S_S200x384 : S_.BroadcastsInDim S200x384 (![] : Fin 0 → Fin S200x384.rank)
  bcast_S28_S1x1x28_2 : S28.BroadcastsInDim S1x1x28 (![2] : Fin 1 → Fin S1x1x28.rank)
  bcast_S200x256_S200x256x1_0_1 : S200x256.BroadcastsInDim S200x256x1 (![0, 1] : Fin 2 → Fin S200x256x1.rank)
  bcast_S1x1x28_S200x256x28_0_1_2 : S1x1x28.BroadcastsInDim S200x256x28 (![0, 1, 2] : Fin 3 → Fin S200x256x28.rank)
  bcast_S200x256x1_S200x256x28_0_1_2 : S200x256x1.BroadcastsInDim S200x256x28 (![0, 1, 2] : Fin 3 → Fin S200x256x28.rank)
  bcast_S200x384_S200x384x1_0_1 : S200x384.BroadcastsInDim S200x384x1 (![0, 1] : Fin 2 → Fin S200x384x1.rank)
  bcast_S1x1x28_S200x384x28_0_1_2 : S1x1x28.BroadcastsInDim S200x384x28 (![0, 1, 2] : Fin 3 → Fin S200x384x28.rank)
  bcast_S200x384x1_S200x384x28_0_1_2 : S200x384x1.BroadcastsInDim S200x384x28 (![0, 1, 2] : Fin 3 → Fin S200x384x28.rank)
  bitsLt_bf16_f32 : FTy.bits .bf16 < FTy.bits .f32
  shapeCasts_S200x1x28x28_S200x28x28 : S200x1x28x28.ShapeCasts S200x28x28
  inb_S20x28x28_S20x28x28_0_0_0 : ∀ a, (![0, 0, 0] : Fin 3 → Nat) a + S20x28x28.size a ≤ S20x28x28.size a
  h_S20x28x28 : 0 < S20x28x28.numel
  shapeCasts_S20x28x28_S20x28x28 : S20x28x28.ShapeCasts S20x28x28
  inb_S20x256x28_S20x256x28_0_0_0 : ∀ a, (![0, 0, 0] : Fin 3 → Nat) a + S20x256x28.size a ≤ S20x256x28.size a
  h_S20x256x28 : 0 < S20x256x28.numel
  shapeCasts_S20x256x28_S20x256x28 : S20x256x28.ShapeCasts S20x256x28
  inb_S20x384x28_S20x384x28_0_0_0 : ∀ a, (![0, 0, 0] : Fin 3 → Nat) a + S20x384x28.size a ≤ S20x384x28.size a
  h_S20x384x28 : 0 < S20x384x28.numel
  shapeCasts_S20x384x28_S20x384x28 : S20x384x28.ShapeCasts S20x384x28
  inb_S20x256x384_S20x256x384_0_0_0 : ∀ a, (![0, 0, 0] : Fin 3 → Nat) a + S20x256x384.size a ≤ S20x256x384.size a
  h_S20x256x384 : 0 < S20x256x384.numel
  bcast_S200x256x384_S1x200x256x384_1_2_3 : S200x256x384.BroadcastsInDim S1x200x256x384 (![1, 2, 3] : Fin 3 → Fin S1x200x256x384.rank)
  dot_S20x256x28_S20x28x28_S20x256x28_2_1_1_2_0_0_wf : DotDims.WF S20x256x28 S20x28x28 S20x256x28 [2] [1] [1] [2] [0] [0]
  dot_S20x256x28_S20x384x28_S20x256x384_2_2_1_1_0_0_wf : DotDims.WF S20x256x28 S20x384x28 S20x256x384 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20x28x28.size a ≤ S200x28x28.size a
  hwx0_0 : ∀ i : grid0.Coords, EltTy.bits .f32 = 32 ∨ (Rect.block (s := S200x28x28) S20x28x28.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20x256x28.size a ≤ S200x256x28.size a
  hwx0_1 : ∀ i : grid0.Coords, EltTy.bits .bf16 = 32 ∨ (Rect.block (s := S200x256x28) S20x256x28.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20x384x28.size a ≤ S200x384x28.size a
  hwx0_2 : ∀ i : grid0.Coords, EltTy.bits .bf16 = 32 ∨ (Rect.block (s := S200x384x28) S20x384x28.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20x256x384.size a ≤ S200x256x384.size a
  hwx0_3 : ∀ i : grid0.Coords, EltTy.bits .f32 = 32 ∨ (Rect.block (s := S200x256x384) S20x256x384.size (cc0_transform_3 i) (hinb0_3 i)).WholeWords (EltTy.packing .f32)

variable [Facts₀]

def dot_S20x256x28_S20x28x28_S20x256x28_2_1_1_2_0_0 : DotDims S20x256x28 S20x28x28 S20x256x28 where
  lhsContracting := [2]
  rhsContracting := [1]
  lhsNonContracting := [1]
  rhsNonContracting := [2]
  lhsBatch := [0]
  rhsBatch := [0]
  wf := dot_S20x256x28_S20x28x28_S20x256x28_2_1_1_2_0_0_wf
def dot_S20x256x28_S20x384x28_S20x256x384_2_2_1_1_0_0 : DotDims S20x256x28 S20x384x28 S20x256x384 where
  lhsContracting := [2]
  rhsContracting := [2]
  lhsNonContracting := [1]
  rhsNonContracting := [1]
  lhsBatch := [0]
  rhsBatch := [0]
  wf := dot_S20x256x28_S20x384x28_S20x256x384_2_2_1_1_0_0_wf

abbrev win0_0 : Pipeline.Window sig grid0 :=
  Pipeline.Window.ofSpec (Memref.whole main_v161) S20x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v159) S20x256x28.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v160) S20x384x28.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v162) S20x256x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200x1x28x28 : Shape := ⟨4, ![200, 1, 28, 28]⟩
abbrev S200x5 : Shape := ⟨2, ![200, 5]⟩
abbrev S200x1 : Shape := ⟨2, ![200, 1]⟩
abbrev S1x133x256x384 : Shape := ⟨4, ![1, 133, 256, 384]⟩
abbrev S200x4 : Shape := ⟨2, ![200, 4]⟩
abbrev S_ : Shape := ⟨0, ![]⟩
abbrev S200 : Shape := ⟨1, ![200]⟩
abbrev S256 : Shape := ⟨1, ![256]⟩
abbrev S384 : Shape := ⟨1, ![384]⟩
abbrev S1x256 : Shape := ⟨2, ![1, 256]⟩
abbrev S200x256 : Shape := ⟨2, ![200, 256]⟩
abbrev S1x384 : Shape := ⟨2, ![1, 384]⟩
abbrev S200x384 : Shape := ⟨2, ![200, 384]⟩
abbrev S200x28x28 : Shape := ⟨3, ![200, 28, 28]⟩
abbrev S200x1x1 : Shape := ⟨3, ![200, 1, 1]⟩
abbrev S200x256x1 : Shape := ⟨3, ![200, 256, 1]⟩
abbrev S200x1x384 : Shape := ⟨3, ![200, 1, 384]⟩
abbrev S200x256x384 : Shape := ⟨3, ![200, 256, 384]⟩
abbrev S200x256x384x1 : Shape := ⟨4, ![200, 256, 384, 1]⟩
abbrev S200x256x384x3 : Shape := ⟨4, ![200, 256, 384, 3]⟩
abbrev S1x200x256x384 : Shape := ⟨4, ![1, 200, 256, 384]⟩

abbrev nBuf : Space → Nat
  | .hbm => 306
  | .vmem => 0
  | .smem => 0
  | _ => 0

abbrev hbmTy0_0 (i : Nat) : BufTy := match i % 128 with
  | 0 => ⟨S200x1x28x28, .f32⟩
  | 1 => ⟨S200x5, .f32⟩
  | 2 => ⟨S200x1, .i32⟩
  | 3 => ⟨S1x133x256x384, .f32⟩
  | 4 => ⟨S200x4, .f32⟩
  | 5 => ⟨S_, .f32⟩
  | 6 => ⟨S200x4, .f32⟩
  | 7 => ⟨S200x4, .f32⟩
  | 8 => ⟨S200x4, .i32⟩
  | 9 => ⟨S200x1, .i32⟩
  | 10 => ⟨S200, .i32⟩
  | 11 => ⟨S200x1, .i32⟩
  | 12 => ⟨S200, .i32⟩
  | 13 => ⟨S200x1, .i32⟩
  | 14 => ⟨S200, .i32⟩
  | 15 => ⟨S200x1, .i32⟩
  | 16 => ⟨S200, .i32⟩
  | 17 => ⟨S200, .i32⟩
  | 18 => ⟨S_, .i32⟩
  | 19 => ⟨S200, .i32⟩
  | 20 => ⟨S200, .i32⟩
  | 21 => ⟨S_, .i32⟩
  | 22 => ⟨S200, .i32⟩
  | 23 => ⟨S200, .i32⟩
  | 24 => ⟨S200, .f32⟩
  | 25 => ⟨S200, .i32⟩
  | 26 => ⟨S_, .i32⟩
  | 27 => ⟨S200, .i32⟩
  | 28 => ⟨S200, .i32⟩
  | 29 => ⟨S_, .i32⟩
  | 30 => ⟨S200, .i32⟩
  | 31 => ⟨S200, .i32⟩
  | 32 => ⟨S200, .f32⟩
  | 33 => ⟨S256, .i32⟩
  | 34 => ⟨S384, .i32⟩
  | 35 => ⟨S1x256, .i32⟩
  | 36 => ⟨S200x1, .i32⟩
  | 37 => ⟨S200x256, .i32⟩
  | 38 => ⟨S200x256, .i32⟩
  | 39 => ⟨S200x256, .i32⟩
  | 40 => ⟨S200x256, .f32⟩
  | 41 => ⟨S1x384, .i32⟩
  | 42 => ⟨S200x1, .i32⟩
  | 43 => ⟨S200x384, .i32⟩
  | 44 => ⟨S200x384, .i32⟩
  | 45 => ⟨S200x384, .i32⟩
  | 46 => ⟨S200x384, .f32⟩
  | 47 => ⟨S_, .f32⟩
  | 48 => ⟨S200x256, .f32⟩
  | 49 => ⟨S200x256, .f32⟩
  | 50 => ⟨S200x1, .f32⟩
  | 51 => ⟨S_, .f32⟩
  | 52 => ⟨S200x1, .f32⟩
  | 53 => ⟨S200x1, .f32⟩
  | 54 => ⟨S200x256, .f32⟩
  | 55 => ⟨S200x256, .f32⟩
  | 56 => ⟨S_, .f32⟩
  | 57 => ⟨S200x256, .f32⟩
  | 58 => ⟨S200x256, .f32⟩
  | 59 => ⟨S_, .f32⟩
  | 60 => ⟨S200x256, .f32⟩
  | 61 => ⟨S200x256, .f32⟩
  | 62 => ⟨S_, .f32⟩
  | 63 => ⟨S200x384, .f32⟩
  | 64 => ⟨S200x384, .f32⟩
  | 65 => ⟨S200x1, .f32⟩
  | 66 => ⟨S_, .f32⟩
  | 67 => ⟨S200x1, .f32⟩
  | 68 => ⟨S200x1, .f32⟩
  | 69 => ⟨S200x384, .f32⟩
  | 70 => ⟨S200x384, .f32⟩
  | 71 => ⟨S_, .f32⟩
  | 72 => ⟨S200x384, .f32⟩
  | 73 => ⟨S200x384, .f32⟩
  | 74 => ⟨S_, .f32⟩
  | 75 => ⟨S200x384, .f32⟩
  | 76 => ⟨S200x384, .f32⟩
  | 77 => ⟨S200x256, .f32⟩
  | 78 => ⟨S_, .i32⟩
  | 79 => ⟨S_, .i32⟩
  | 80 => ⟨S_, .f32⟩
  | 81 => ⟨S200x256, .f32⟩
  | 82 => ⟨S200x256, .f32⟩
  | 83 => ⟨S_, .f32⟩
  | 84 => ⟨S200x256, .f32⟩
  | 85 => ⟨S200x256, .f32⟩
  | 86 => ⟨S200x256, .i32⟩
  | 87 => ⟨S200x384, .f32⟩
  | 88 => ⟨S_, .i32⟩
  | 89 => ⟨S_, .i32⟩
  | 90 => ⟨S_, .f32⟩
  | 91 => ⟨S200x384, .f32⟩
  | 92 => ⟨S200x384, .f32⟩
  | 93 => ⟨S_, .f32⟩
  | 94 => ⟨S200x384, .f32⟩
  | 95 => ⟨S200x384, .f32⟩
  | 96 => ⟨S200x384, .i32⟩
  | 97 => ⟨S_, .i32⟩
  | 98 => ⟨S200x256, .i32⟩
  | 99 => ⟨S200x256, .i32⟩
  | 100 => ⟨S_, .i32⟩
  | 101 => ⟨S200x256, .i32⟩
  | 102 => ⟨S200x256, .i32⟩
  | 103 => ⟨S_, .i32⟩
  | 104 => ⟨S200x384, .i32⟩
  | 105 => ⟨S200x384, .i32⟩
  | 106 => ⟨S_, .i32⟩
  | 107 => ⟨S200x384, .i32⟩
  | 108 => ⟨S200x384, .i32⟩
  | 109 => ⟨S200x256, .f32⟩
  | 110 => ⟨S200x256, .f32⟩
  | 111 => ⟨S200x384, .f32⟩
  | 112 => ⟨S200x384, .f32⟩
  | 113 => ⟨S200x28x28, .f32⟩
  | 114 => ⟨S200, .i32⟩
  | 115 => ⟨S200x1x1, .i32⟩
  | 116 => ⟨S200x256x1, .i32⟩
  | 117 => ⟨S200x256x1, .i32⟩
  | 118 => ⟨S200x1x384, .i32⟩
  | 119 => ⟨S200x1x384, .i32⟩
  | 120 => ⟨S_, .i32⟩
  | 121 => ⟨S200x1x1, .i32⟩
  | 122 => ⟨S200x1x1, .i1⟩
  | 123 => ⟨S_, .i32⟩
  | 124 => ⟨S200x1x1, .i32⟩
  | 125 => ⟨S200x1x1, .i32⟩
  | 126 => ⟨S200x1x1, .i32⟩
  | 127 => ⟨S_, .i32⟩
  | _ => ⟨S200x1x28x28, .f32⟩

abbrev hbmTy0_1 (i : Nat) : BufTy := match i % 128 with
  | 0 => ⟨S200x256x1, .i32⟩
  | 1 => ⟨S200x256x1, .i1⟩
  | 2 => ⟨S_, .i32⟩
  | 3 => ⟨S200x256x1, .i32⟩
  | 4 => ⟨S200x256x1, .i32⟩
  | 5 => ⟨S200x256x1, .i32⟩
  | 6 => ⟨S_, .i32⟩
  | 7 => ⟨S200x1x384, .i32⟩
  | 8 => ⟨S200x1x384, .i1⟩
  | 9 => ⟨S_, .i32⟩
  | 10 => ⟨S200x1x384, .i32⟩
  | 11 => ⟨S200x1x384, .i32⟩
  | 12 => ⟨S200x1x384, .i32⟩
  | 13 => ⟨S200x256x384, .i32⟩
  | 14 => ⟨S200x256x384, .i32⟩
  | 15 => ⟨S200x256x384, .i32⟩
  | 16 => ⟨S200x256x384x1, .i32⟩
  | 17 => ⟨S200x256x384x1, .i32⟩
  | 18 => ⟨S200x256x384x1, .i32⟩
  | 19 => ⟨S200x256x384x3, .i32⟩
  | 20 => ⟨S200x256x384, .f32⟩
  | 21 => ⟨S_, .i32⟩
  | 22 => ⟨S200x1x1, .i32⟩
  | 23 => ⟨S200x1x1, .i1⟩
  | 24 => ⟨S_, .i32⟩
  | 25 => ⟨S200x1x1, .i32⟩
  | 26 => ⟨S200x1x1, .i32⟩
  | 27 => ⟨S200x1x1, .i32⟩
  | 28 => ⟨S_, .i32⟩
  | 29 => ⟨S200x256x1, .i32⟩
  | 30 => ⟨S200x256x1, .i1⟩
  | 31 => ⟨S_, .i32⟩
  | 32 => ⟨S200x256x1, .i32⟩
  | 33 => ⟨S200x256x1, .i32⟩
  | 34 => ⟨S200x256x1, .i32⟩
  | 35 => ⟨S_, .i32⟩
  | 36 => ⟨S200x1x384, .i32⟩
  | 37 => ⟨S200x1x384, .i1⟩
  | 38 => ⟨S_, .i32⟩
  | 39 => ⟨S200x1x384, .i32⟩
  | 40 => ⟨S200x1x384, .i32⟩
  | 41 => ⟨S200x1x384, .i32⟩
  | 42 => ⟨S200x256x384, .i32⟩
  | 43 => ⟨S200x256x384, .i32⟩
  | 44 => ⟨S200x256x384, .i32⟩
  | 45 => ⟨S200x256x384x1, .i32⟩
  | 46 => ⟨S200x256x384x1, .i32⟩
  | 47 => ⟨S200x256x384x1, .i32⟩
  | 48 => ⟨S200x256x384x3, .i32⟩
  | 49 => ⟨S200x256x384, .f32⟩
  | 50 => ⟨S_, .i32⟩
  | 51 => ⟨S200x1x1, .i32⟩
  | 52 => ⟨S200x1x1, .i1⟩
  | 53 => ⟨S_, .i32⟩
  | 54 => ⟨S200x1x1, .i32⟩
  | 55 => ⟨S200x1x1, .i32⟩
  | 56 => ⟨S200x1x1, .i32⟩
  | 57 => ⟨S_, .i32⟩
  | 58 => ⟨S200x256x1, .i32⟩
  | 59 => ⟨S200x256x1, .i1⟩
  | 60 => ⟨S_, .i32⟩
  | 61 => ⟨S200x256x1, .i32⟩
  | 62 => ⟨S200x256x1, .i32⟩
  | 63 => ⟨S200x256x1, .i32⟩
  | 64 => ⟨S_, .i32⟩
  | 65 => ⟨S200x1x384, .i32⟩
  | 66 => ⟨S200x1x384, .i1⟩
  | 67 => ⟨S_, .i32⟩
  | 68 => ⟨S200x1x384, .i32⟩
  | 69 => ⟨S200x1x384, .i32⟩
  | 70 => ⟨S200x1x384, .i32⟩
  | 71 => ⟨S200x256x384, .i32⟩
  | 72 => ⟨S200x256x384, .i32⟩
  | 73 => ⟨S200x256x384, .i32⟩
  | 74 => ⟨S200x256x384x1, .i32⟩
  | 75 => ⟨S200x256x384x1, .i32⟩
  | 76 => ⟨S200x256x384x1, .i32⟩
  | 77 => ⟨S200x256x384x3, .i32⟩
  | 78 => ⟨S200x256x384, .f32⟩
  | 79 => ⟨S_, .i32⟩
  | 80 => ⟨S200x1x1, .i32⟩
  | 81 => ⟨S200x1x1, .i1⟩
  | 82 => ⟨S_, .i32⟩
  | 83 => ⟨S200x1x1, .i32⟩
  | 84 => ⟨S200x1x1, .i32⟩
  | 85 => ⟨S200x1x1, .i32⟩
  | 86 => ⟨S_, .i32⟩
  | 87 => ⟨S200x256x1, .i32⟩
  | 88 => ⟨S200x256x1, .i1⟩
  | 89 => ⟨S_, .i32⟩
  | 90 => ⟨S200x256x1, .i32⟩
  | 91 => ⟨S200x256x1, .i32⟩
  | 92 => ⟨S200x256x1, .i32⟩
  | 93 => ⟨S_, .i32⟩
  | 94 => ⟨S200x1x384, .i32⟩
  | 95 => ⟨S200x1x384, .i1⟩
  | 96 => ⟨S_, .i32⟩
  | 97 => ⟨S200x1x384, .i32⟩
  | 98 => ⟨S200x1x384, .i32⟩
  | 99 => ⟨S200x1x384, .i32⟩
  | 100 => ⟨S200x256x384, .i32⟩
  | 101 => ⟨S200x256x384, .i32⟩
  | 102 => ⟨S200x256x384, .i32⟩
  | 103 => ⟨S200x256x384x1, .i32⟩
  | 104 => ⟨S200x256x384x1, .i32⟩
  | 105 => ⟨S200x256x384x1, .i32⟩
  | 106 => ⟨S200x256x384x3, .i32⟩
  | 107 => ⟨S200x256x384, .f32⟩
  | 108 => ⟨S200x1x384, .f32⟩
  | 109 => ⟨S200x256x1, .f32⟩
  | 110 => ⟨S_, .f32⟩
  | 111 => ⟨S200x1x384, .f32⟩
  | 112 => ⟨S200x1x384, .f32⟩
  | 113 => ⟨S200x256x384, .f32⟩
  | 114 => ⟨S200x256x384, .f32⟩
  | 115 => ⟨S200x256x384, .f32⟩
  | 116 => ⟨S200x256x384, .f32⟩
  | 117 => ⟨S200x256x384, .f32⟩
  | 118 => ⟨S_, .f32⟩
  | 119 => ⟨S200x256x1, .f32⟩
  | 120 => ⟨S200x256x1, .f32⟩
  | 121 => ⟨S200x256x384, .f32⟩
  | 122 => ⟨S200x256x384, .f32⟩
  | 123 => ⟨S_, .f32⟩
  | 124 => ⟨S200x1x384, .f32⟩
  | 125 => ⟨S200x1x384, .f32⟩
  | 126 => ⟨S200x256x384, .f32⟩
  | 127 => ⟨S200x256x384, .f32⟩
  | _ => ⟨S200x1x28x28, .f32⟩

abbrev hbmTy0_2 (i : Nat) : BufTy := match i % 128 with
  | 0 => ⟨S200x256x384, .f32⟩
  | 1 => ⟨S200x256x384, .f32⟩
  | 2 => ⟨S200x256x384, .f32⟩
  | 3 => ⟨S200x256x384, .f32⟩
  | 4 => ⟨S200x256x384, .f32⟩
  | 5 => ⟨S200x256x384, .f32⟩
  | 6 => ⟨S1x256, .i32⟩
  | 7 => ⟨S_, .i32⟩
  | 8 => ⟨S200, .i32⟩
  | 9 => ⟨S200, .i32⟩
  | 10 => ⟨S200x1, .i32⟩
  | 11 => ⟨S200x256, .i32⟩
  | 12 => ⟨S200x256, .i32⟩
  | 13 => ⟨S200x256, .i1⟩
  | 14 => ⟨S1x256, .i32⟩
  | 15 => ⟨S_, .i32⟩
  | 16 => ⟨S200, .i32⟩
  | 17 => ⟨S200, .i32⟩
  | 18 => ⟨S200x1, .i32⟩
  | 19 => ⟨S200x256, .i32⟩
  | 20 => ⟨S200x256, .i32⟩
  | 21 => ⟨S200x256, .i1⟩
  | 22 => ⟨S200x256, .i1⟩
  | 23 => ⟨S1x384, .i32⟩
  | 24 => ⟨S_, .i32⟩
  | 25 => ⟨S200, .i32⟩
  | 26 => ⟨S200, .i32⟩
  | 27 => ⟨S200x1, .i32⟩
  | 28 => ⟨S200x384, .i32⟩
  | 29 => ⟨S200x384, .i32⟩
  | 30 => ⟨S200x384, .i1⟩
  | 31 => ⟨S1x384, .i32⟩
  | 32 => ⟨S_, .i32⟩
  | 33 => ⟨S200, .i32⟩
  | 34 => ⟨S200, .i32⟩
  | 35 => ⟨S200x1, .i32⟩
  | 36 => ⟨S200x384, .i32⟩
  | 37 => ⟨S200x384, .i32⟩
  | 38 => ⟨S200x384, .i1⟩
  | 39 => ⟨S200x384, .i1⟩
  | 40 => ⟨S200x256x1, .i1⟩
  | 41 => ⟨S200x1x384, .i1⟩
  | 42 => ⟨S200x256x384, .i1⟩
  | 43 => ⟨S200x256x384, .i1⟩
  | 44 => ⟨S200x256x384, .i1⟩
  | 45 => ⟨S_, .f32⟩
  | 46 => ⟨S_, .f32⟩
  | 47 => ⟨S200x256x384, .f32⟩
  | 48 => ⟨S200x256x384, .f32⟩
  | 49 => ⟨S1x200x256x384, .f32⟩
  | _ => ⟨S200x1x28x28, .f32⟩

abbrev hbmTy (i : Nat) : BufTy := match i / 128 with
  | 0 => hbmTy0_0 i
  | 1 => hbmTy0_1 i
  | 2 => hbmTy0_2 i
  | _ => ⟨S200x1x28x28, .f32⟩

abbrev bufTy : (tb : Table) → Fin (tcTables nBuf tb) → BufTy
  | .hbm, ⟨i, _⟩ => hbmTy i
  | _, _ => ⟨S200x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_11 : Ref sig .tc := ⟨.hbm, 78, rfl⟩
abbrev main_c_12 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_c_14 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_19 : Ref sig .tc := ⟨.hbm, 120, rfl⟩
abbrev main_v85 : Ref sig .tc := ⟨.hbm, 121, rfl⟩
abbrev main_v86 : Ref sig .tc := ⟨.hbm, 122, rfl⟩
abbrev main_c_20 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_21 : Ref sig .tc := ⟨.hbm, 127, rfl⟩
abbrev main_v90 : Ref sig .tc := ⟨.hbm, 128, rfl⟩
abbrev main_v91 : Ref sig .tc := ⟨.hbm, 129, rfl⟩
abbrev main_c_22 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_23 : Ref sig .tc := ⟨.hbm, 134, rfl⟩
abbrev main_v95 : Ref sig .tc := ⟨.hbm, 135, rfl⟩
abbrev main_v96 : Ref sig .tc := ⟨.hbm, 136, rfl⟩
abbrev main_c_24 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_25 : Ref sig .tc := ⟨.hbm, 149, rfl⟩
abbrev main_v108 : Ref sig .tc := ⟨.hbm, 150, rfl⟩
abbrev main_v109 : Ref sig .tc := ⟨.hbm, 151, rfl⟩
abbrev main_c_26 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_27 : Ref sig .tc := ⟨.hbm, 156, rfl⟩
abbrev main_v113 : Ref sig .tc := ⟨.hbm, 157, rfl⟩
abbrev main_v114 : Ref sig .tc := ⟨.hbm, 158, rfl⟩
abbrev main_c_28 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_29 : Ref sig .tc := ⟨.hbm, 163, rfl⟩
abbrev main_v118 : Ref sig .tc := ⟨.hbm, 164, rfl⟩
abbrev main_v119 : Ref sig .tc := ⟨.hbm, 165, rfl⟩
abbrev main_c_30 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_c_31 : Ref sig .tc := ⟨.hbm, 178, rfl⟩
abbrev main_v131 : Ref sig .tc := ⟨.hbm, 179, rfl⟩
abbrev main_v132 : Ref sig .tc := ⟨.hbm, 180, rfl⟩
abbrev main_c_32 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_c_33 : Ref sig .tc := ⟨.hbm, 185, rfl⟩
abbrev main_v136 : Ref sig .tc := ⟨.hbm, 186, rfl⟩
abbrev main_v137 : Ref sig .tc := ⟨.hbm, 187, rfl⟩
abbrev main_c_34 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_c_35 : Ref sig .tc := ⟨.hbm, 192, rfl⟩
abbrev main_v141 : Ref sig .tc := ⟨.hbm, 193, rfl⟩
abbrev main_v142 : Ref sig .tc := ⟨.hbm, 194, rfl⟩
abbrev main_c_36 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_c_37 : Ref sig .tc := ⟨.hbm, 207, rfl⟩
abbrev main_v154 : Ref sig .tc := ⟨.hbm, 208, rfl⟩
abbrev main_v155 : Ref sig .tc := ⟨.hbm, 209, rfl⟩
abbrev main_c_38 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_c_39 : Ref sig .tc := ⟨.hbm, 214, rfl⟩
abbrev main_v159 : Ref sig .tc := ⟨.hbm, 215, rfl⟩
abbrev main_v160 : Ref sig .tc := ⟨.hbm, 216, rfl⟩
abbrev main_c_40 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_c_41 : Ref sig .tc := ⟨.hbm, 221, rfl⟩
abbrev main_v164 : Ref sig .tc := ⟨.hbm, 222, rfl⟩
abbrev main_v165 : Ref sig .tc := ⟨.hbm, 223, rfl⟩
abbrev main_c_42 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_cst_43 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_cst_44 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_45 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_c_46 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_c_47 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_c_48 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_c_49 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_cst_50 : Ref sig .tc := ⟨.hbm, 301, rfl⟩
abbrev main_call2_v0 : Ref sig .tc := ⟨.hbm, 302, rfl⟩
abbrev main_call2_v1 : Ref sig .tc := ⟨.hbm, 303, rfl⟩
abbrev main_v235 : Ref sig .tc := ⟨.hbm, 304, rfl⟩
abbrev main_v236 : Ref sig .tc := ⟨.hbm, 305, rfl⟩

abbrev nD : Nat := 1
abbrev τ : Topo := Topo.v7x

variable {F : FTy → Type} [FloatOps F]

class Facts₀ : Prop where
  slices_S200x5_S200x4_0_1 : S200x5.Slices ![0, 1] S200x4
  bcast_S_S200x4 : S_.BroadcastsInDim S200x4 (![] : Fin 0 → Fin S200x4.rank)
  slices_S200x4_S200x1_0_0 : S200x4.Slices ![0, 0] S200x1
  shapeCasts_S200x1_S200 : S200x1.ShapeCasts S200
  slices_S200x4_S200x1_0_1 : S200x4.Slices ![0, 1] S200x1
  slices_S200x4_S200x1_0_2 : S200x4.Slices ![0, 2] S200x1
  slices_S200x4_S200x1_0_3 : S200x4.Slices ![0, 3] S200x1
  bcast_S_S200 : S_.BroadcastsInDim S200 (![] : Fin 0 → Fin S200.rank)
  bcast_S256_S1x256_1 : S256.BroadcastsInDim S1x256 (![1] : Fin 1 → Fin S1x256.rank)
  bcast_S200_S200x1_0 : S200.BroadcastsInDim S200x1 (![0] : Fin 1 → Fin S200x1.rank)
  bcast_S1x256_S200x256_0_1 : S1x256.BroadcastsInDim S200x256 (![0, 1] : Fin 2 → Fin S200x256.rank)
  bcast_S200x1_S200x256_0_1 : S200x1.BroadcastsInDim S200x256 (![0, 1] : Fin 2 → Fin S200x256.rank)
  bcast_S384_S1x384_1 : S384.BroadcastsInDim S1x384 (![1] : Fin 1 → Fin S1x384.rank)
  bcast_S1x384_S200x384_0_1 : S1x384.BroadcastsInDim S200x384 (![0, 1] : Fin 2 → Fin S200x384.rank)
  bcast_S200x1_S200x384_0_1 : S200x1.BroadcastsInDim S200x384 (![0, 1] : Fin 2 → Fin S200x384.rank)
  bcast_S_S200x256 : S_.BroadcastsInDim S200x256 (![] : Fin 0 → Fin S200x256.rank)
  bcast_S_S200x1 : S_.BroadcastsInDim S200x1 (![] : Fin 0 → Fin S200x1.rank)
  bcast_S_S200x384 : S_.BroadcastsInDim S200x384 (![] : Fin 0 → Fin S200x384.rank)
  shapeCasts_S200x1x28x28_S200x28x28 : S200x1x28x28.ShapeCasts S200x28x28
  bcast_S200_S200x1x1_0 : S200.BroadcastsInDim S200x1x1 (![0] : Fin 1 → Fin S200x1x1.rank)
  bcast_S200x256_S200x256x1_0_1 : S200x256.BroadcastsInDim S200x256x1 (![0, 1] : Fin 2 → Fin S200x256x1.rank)
  bcast_S200x384_S200x1x384_0_2 : S200x384.BroadcastsInDim S200x1x384 (![0, 2] : Fin 2 → Fin S200x1x384.rank)
  bcast_S_S200x1x1 : S_.BroadcastsInDim S200x1x1 (![] : Fin 0 → Fin S200x1x1.rank)
  bcast_S_S200x256x1 : S_.BroadcastsInDim S200x256x1 (![] : Fin 0 → Fin S200x256x1.rank)
  bcast_S_S200x1x384 : S_.BroadcastsInDim S200x1x384 (![] : Fin 0 → Fin S200x1x384.rank)
  bcast_S200x1x1_S200x256x384_0_1_2 : S200x1x1.BroadcastsInDim S200x256x384 (![0, 1, 2] : Fin 3 → Fin S200x256x384.rank)
  bcast_S200x256x1_S200x256x384_0_1_2 : S200x256x1.BroadcastsInDim S200x256x384 (![0, 1, 2] : Fin 3 → Fin S200x256x384.rank)
  bcast_S200x1x384_S200x256x384_0_1_2 : S200x1x384.BroadcastsInDim S200x256x384 (![0, 1, 2] : Fin 3 → Fin S200x256x384.rank)
  bcast_S200x256x384_S200x256x384x1_0_1_2 : S200x256x384.BroadcastsInDim S200x256x384x1 (![0, 1, 2] : Fin 3 → Fin S200x256x384x1.rank)
  concatenates_S200x256x384x1_S200x256x384x1_S200x256x384x1_S200x256x384x3_d3 : Shape.Concatenates [S200x256x384x1, S200x256x384x1, S200x256x384x1] S200x256x384x3 3
  bcast_S_S200x256x384 : S_.BroadcastsInDim S200x256x384 (![] : Fin 0 → Fin S200x256x384.rank)
  bcast_S200x256x384_S1x200x256x384_1_2_3 : S200x256x384.BroadcastsInDim S1x200x256x384 (![1, 2, 3] : Fin 3 → Fin S1x200x256x384.rank)
  gather_S200x28x28_S200x256x384x3_S200x256x384_n_012_n_n_012_3_111_wf : GatherDims.WF S200x28x28 S200x256x384x3 S200x256x384 [] [0, 1, 2] [] [0, 1, 2] [] 3 ![1, 1, 1]

variable [Facts₀]

def gather_S200x28x28_S200x256x384x3_S200x256x384_n_012_n_n_012_3_111 : GatherDims S200x28x28 S200x256x384x3 S200x256x384 where
  offsetDims := []
  collapsedSliceDims := [0, 1, 2]
  operandBatchingDims := []
  startIndicesBatchingDims := []
  startIndexMap := [0, 1, 2]
  indexVectorDim := 3
  sliceSizes := ![1, 1, 1]
  wf := gather_S200x28x28_S200x256x384x3_S200x256x384_n_012_n_n_012_3_111_wf

class Facts : Prop extends Facts₀ where

variable [Facts]
-- ==== Proof.KernelBody.lean ====
/- The kernel body's stored value read at one index: two batched contractions into zero accumulators,
   first over the mask's row axis, then over its column axis. -/
import proofs.«118550_j32074815766904_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-- The first contraction's dimension numbers: batch axis 0, the left operand's axis 2 against the right's axis 1. -/
abbrev dotA : DotDims S20x256x28 S20x28x28 S20x256x28 := dot_S20x256x28_S20x28x28_S20x256x28_2_1_1_2_0_0
/-- The second contraction's dimension numbers: batch axis 0, both operands' axis 2. -/
abbrev dotB : DotDims S20x256x28 S20x384x28 S20x256x384 := dot_S20x256x28_S20x384x28_S20x256x384_2_2_1_1_0_0

/-! ## The operand indices of the first contraction, axis by axis -/

theorem lhsA_0 (i : S20x256x28.Idx) (q : dotA.contr.Idx) : (dotA.lhsIdx i q 0).val = (i 0).val := by
  unfold DotDims.lhsIdx
  rw [dif_pos (show (0 : Fin S20x256x28.rank) ∈ dotA.lhsBatch by decide)]
  rfl
theorem lhsA_1 (i : S20x256x28.Idx) (q : dotA.contr.Idx) : (dotA.lhsIdx i q 1).val = (i 1).val := by
  unfold DotDims.lhsIdx
  rw [dif_neg (show ¬(1 : Fin S20x256x28.rank) ∈ dotA.lhsBatch by decide), dif_pos (show (1 : Fin S20x256x28.rank) ∈ dotA.lhsNonContracting by decide)]
  rfl
theorem lhsA_2 (i : S20x256x28.Idx) (q : dotA.contr.Idx) : (dotA.lhsIdx i q 2).val = (q ⟨0, by decide⟩).val :=
  dotA.lhsIdx_val_of_single rfl i q
theorem rhsA_0 (i : S20x256x28.Idx) (q : dotA.contr.Idx) : (dotA.rhsIdx i q 0).val = (i 0).val := by
  unfold DotDims.rhsIdx
  rw [dif_pos (show (0 : Fin S20x28x28.rank) ∈ dotA.rhsBatch by decide)]
  rfl
theorem rhsA_1 (i : S20x256x28.Idx) (q : dotA.contr.Idx) : (dotA.rhsIdx i q 1).val = (q ⟨0, by decide⟩).val :=
  dotA.rhsIdx_val_of_single rfl i q
theorem rhsA_2 (i : S20x256x28.Idx) (q : dotA.contr.Idx) : (dotA.rhsIdx i q 2).val = (i 2).val := by
  unfold DotDims.rhsIdx
  rw [dif_neg (show ¬(2 : Fin S20x28x28.rank) ∈ dotA.rhsBatch by decide), dif_pos (show (2 : Fin S20x28x28.rank) ∈ dotA.rhsNonContracting by decide)]
  rfl

/-! ## The operand indices of the second contraction -/

theorem lhsB_0 (i : S20x256x384.Idx) (q : dotB.contr.Idx) : (dotB.lhsIdx i q 0).val = (i 0).val := by
  unfold DotDims.lhsIdx
  rw [dif_pos (show (0 : Fin S20x256x28.rank) ∈ dotB.lhsBatch by decide)]
  rfl
theorem lhsB_1 (i : S20x256x384.Idx) (q : dotB.contr.Idx) : (dotB.lhsIdx i q 1).val = (i 1).val := by
  unfold DotDims.lhsIdx
  rw [dif_neg (show ¬(1 : Fin S20x256x28.rank) ∈ dotB.lhsBatch by decide), dif_pos (show (1 : Fin S20x256x28.rank) ∈ dotB.lhsNonContracting by decide)]
  rfl
theorem lhsB_2 (i : S20x256x384.Idx) (q : dotB.contr.Idx) : (dotB.lhsIdx i q 2).val = (q ⟨0, by decide⟩).val :=
  dotB.lhsIdx_val_of_single rfl i q
theorem rhsB_0 (i : S20x256x384.Idx) (q : dotB.contr.Idx) : (dotB.rhsIdx i q 0).val = (i 0).val := by
  unfold DotDims.rhsIdx
  rw [dif_pos (show (0 : Fin S20x384x28.rank) ∈ dotB.rhsBatch by decide)]
  rfl
theorem rhsB_1 (i : S20x256x384.Idx) (q : dotB.contr.Idx) : (dotB.rhsIdx i q 1).val = (i 2).val := by
  unfold DotDims.rhsIdx
  rw [dif_neg (show ¬(1 : Fin S20x384x28.rank) ∈ dotB.rhsBatch by decide), dif_pos (show (1 : Fin S20x384x28.rank) ∈ dotB.rhsNonContracting by decide)]
  rfl
theorem rhsB_2 (i : S20x256x384.Idx) (q : dotB.contr.Idx) : (dotB.rhsIdx i q 2).val = (q ⟨0, by decide⟩).val :=
  dotB.rhsIdx_val_of_single rfl i q

/-! ## The two contractions at an index -/

/-- The first contraction into the zero accumulator: over the mask's row index. -/
theorem mmA_apply (l : FVec Ideal S20x256x28 .bf16) (r : FVec Ideal S20x28x28 .bf16) (p : Fin 20) (y : Fin 256) (b : Fin 28) :
    matmul (F := Ideal) dotA none l r (constant (F := Ideal) S20x256x28 .f32 0x00000000#32) (ix3 p y b)
      = ∑ a : Fin 28, l (ix3 p y a) * r (ix3 p a b) := by
  simp only [matmul]
  rw [Ideal.matmul_constant_zero_apply, ← Equiv.sum_comp (contrEquiv1 dotA 28 rfl rfl).symm]
  refine Finset.sum_congr rfl fun k _ => ?_
  have hk := contrEquiv1_symm_val dotA 28 rfl rfl k
  have el : dotA.lhsIdx (ix3 p y b) ((contrEquiv1 dotA 28 rfl rfl).symm k) = ix3 p y k := funext fun a => Fin.ext (by
    match a with
    | ⟨0, _⟩ => exact lhsA_0 _ _
    | ⟨1, _⟩ => exact lhsA_1 _ _
    | ⟨2, _⟩ => exact (lhsA_2 _ _).trans hk)
  have er : dotA.rhsIdx (ix3 p y b) ((contrEquiv1 dotA 28 rfl rfl).symm k) = ix3 p k b := funext fun a => Fin.ext (by
    match a with
    | ⟨0, _⟩ => exact rhsA_0 _ _
    | ⟨1, _⟩ => exact (rhsA_1 _ _).trans hk
    | ⟨2, _⟩ => exact rhsA_2 _ _)
  rw [el, er]

/-- The second contraction into the zero accumulator: over the mask's column index. -/
theorem mmB_apply (l : FVec Ideal S20x256x28 .bf16) (r : FVec Ideal S20x384x28 .bf16) (p : Fin 20) (y : Fin 256) (x : Fin 384) :
    matmul (F := Ideal) dotB none l r (constant (F := Ideal) S20x256x384 .f32 0x00000000#32) (ix3 p y x)
      = ∑ b : Fin 28, l (ix3 p y b) * r (ix3 p x b) := by
  simp only [matmul]
  rw [Ideal.matmul_constant_zero_apply, ← Equiv.sum_comp (contrEquiv1 dotB 28 rfl rfl).symm]
  refine Finset.sum_congr rfl fun k _ => ?_
  have hk := contrEquiv1_symm_val dotB 28 rfl rfl k
  have el : dotB.lhsIdx (ix3 p y x) ((contrEquiv1 dotB 28 rfl rfl).symm k) = ix3 p y k := funext fun a => Fin.ext (by
    match a with
    | ⟨0, _⟩ => exact lhsB_0 _ _
    | ⟨1, _⟩ => exact lhsB_1 _ _
    | ⟨2, _⟩ => exact (lhsB_2 _ _).trans hk)
  have er : dotB.rhsIdx (ix3 p y x) ((contrEquiv1 dotB 28 rfl rfl).symm k) = ix3 p x k := funext fun a => Fin.ext (by
    match a with
    | ⟨0, _⟩ => exact rhsB_0 _ _
    | ⟨1, _⟩ => exact rhsB_1 _ _
    | ⟨2, _⟩ => exact (rhsB_2 _ _).trans hk)
  rw [el, er]

/-! ## The stored value at an index -/

/-- The body's stored block at box `p`, row `y`, column `x`: the mask contracted with the row table along its rows,
    the result contracted with the column table along its columns (the narrowing format changes are the identity on
    the extended reals, the shape casts are to the same shape). -/
theorem pay_apply (x0 : Vec Ideal S20x28x28 .f32) (x1 : Vec Ideal S20x256x28 .bf16) (x2 : Vec Ideal S20x384x28 .bf16)
    (p : Fin 20) (y : Fin 256) (x : Fin 384) :
    k0_pay1 (F := Ideal) x0 x1 x2 (ix3 p y x)
      = ∑ b : Fin 28, (∑ a : Fin 28, x1 (ix3 p y a) * x0 (ix3 p a b)) * x2 (ix3 p x b) := by
  unfold k0_pay1
  simp only [shapeCast_self]
  refine (mmB_apply _ _ p y x).trans ?_
  refine Finset.sum_congr rfl fun b _ => ?_
  refine congrArg (· * x2 (ix3 p x b)) ?_
  exact mmA_apply _ _ p y b

end Cert.KernelIdeal.KValue

end
-- ==== Proof.KernelBlocks.lean ====
/- From the grid points' blocks to the whole array: every point writes back the block of ONE function of the three
   arrays the region finds (the mask array and the two interpolation tables), and the ten blocks cover the array. -/
import proofs.«118550_j32074815766904_2_alg».proof.Proof.Gen.KernelIdeal.Frame
import proofs.«118550_j32074815766904_2_alg».proof.Proof.KernelBody
import Idealize.ShloMosaic.Lib.Pipeline.Value

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## The array the region leaves, as one function of the three arrays it reads -/

/-- One entry: box `n`'s mask contracted with row `y` of its row table and row `x` of its column table. -/
def pasteAt (M : FVec Ideal S200x28x28 .f32) (IH : FVec Ideal S200x256x28 .bf16) (IW : FVec Ideal S200x384x28 .bf16)
    (n : Fin 200) (y : Fin 256) (x : Fin 384) : Ideal .f32 :=
  ∑ b : Fin 28, (∑ a : Fin 28, IH (ix3 n y a) * M (ix3 n a b)) * IW (ix3 n x b)

/-- The [200,256,384] array of those entries. -/
def pasteArr (M : FVec Ideal S200x28x28 .f32) (IH : FVec Ideal S200x256x28 .bf16) (IW : FVec Ideal S200x384x28 .bf16) :
    FVec Ideal S200x256x384 .f32 :=
  fun j => pasteAt M IH IW (j 0) (j 1) (j 2)

/-- The body's stored block at any index of the block, by coordinates. -/
theorem pay_at (x0 : Vec Ideal S20x28x28 .f32) (x1 : Vec Ideal S20x256x28 .bf16) (x2 : Vec Ideal S20x384x28 .bf16)
    (j : S20x256x384.Idx) :
    k0_pay1 (F := Ideal) x0 x1 x2 j
      = ∑ b : Fin 28, (∑ a : Fin 28, x1 (ix3 (j 0) (j 1) a) * x0 (ix3 (j 0) a b)) * x2 (ix3 (j 0) (j 2) b) := by
  obtain ⟨p, y, x, rfl⟩ : ∃ (p : Fin 20) (y : Fin 256) (x : Fin 384), j = ix3 p y x := ⟨j 0, j 1, j 2, eq_ix3 j⟩
  exact pay_apply x0 x1 x2 p y x

/-! ## The windows' index maps: every window moves along the box axis with the grid point -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## Each input block is twenty consecutive boxes of its array -/

/-- The mask window's block at point `t` is boxes `20 t … 20 t + 19` of the mask array. -/
theorem iblk0_apply (c : Dev nD) (t : Fin cfg0.N) (x : S20x28x28.Idx) (k : S200x28x28.Idx)
    (hk0 : (k 0).val = 20 * t.val + (x 0).val) (hk1 : (k 1).val = (x 1).val) (hk2 : (k 2).val = (x 2).val) :
    (iblk m c 0 t : Vec Ideal S20x28x28 .f32) x = (V m c main_v161 : S200x28x28.Idx → Elt Ideal .f32) k := by
  obtain ⟨e0, e1, e2, -⟩ := idx_facts t
  unfold iblk
  rw [View.read_apply]
  show V m c main_v161 _ = V m c main_v161 _
  refine congrArg (V m c main_v161) ?_
  funext a
  apply Fin.ext
  match a with
  | ⟨0, _⟩ => show win0_0.index t (0 : Fin 3) * 20 + 1 * (x 0).val = (k 0).val; rw [e0, hk0]; omega
  | ⟨1, _⟩ => show win0_0.index t (1 : Fin 3) * 28 + 1 * (x 1).val = (k 1).val; rw [e1, hk1]; omega
  | ⟨2, _⟩ => show win0_0.index t (2 : Fin 3) * 28 + 1 * (x 2).val = (k 2).val; rw [e2, hk2]; omega

/-- The row table window's block at point `t` is boxes `20 t … 20 t + 19` of the row table. -/
theorem iblk1_apply (c : Dev nD) (t : Fin cfg0.N) (x : S20x256x28.Idx) (k : S200x256x28.Idx)
    (hk0 : (k 0).val = 20 * t.val + (x 0).val) (hk1 : (k 1).val = (x 1).val) (hk2 : (k 2).val = (x 2).val) :
    (iblk m c 1 t : Vec Ideal S20x256x28 .bf16) x = (V m c main_v159 : S200x256x28.Idx → Elt Ideal .bf16) k := by
  obtain ⟨-, -, -, e0, e1, e2, -⟩ := idx_facts t
  unfold iblk
  rw [View.read_apply]
  show V m c main_v159 _ = V m c main_v159 _
  refine congrArg (V m c main_v159) ?_
  funext a
  apply Fin.ext
  match a with
  | ⟨0, _⟩ => show win0_1.index t (0 : Fin 3) * 20 + 1 * (x 0).val = (k 0).val; rw [e0, hk0]; omega
  | ⟨1, _⟩ => show win0_1.index t (1 : Fin 3) * 256 + 1 * (x 1).val = (k 1).val; rw [e1, hk1]; omega
  | ⟨2, _⟩ => show win0_1.index t (2 : Fin 3) * 28 + 1 * (x 2).val = (k 2).val; rw [e2, hk2]; omega

/-- The column table window's block at point `t` is boxes `20 t … 20 t + 19` of the column table. -/
theorem iblk2_apply (c : Dev nD) (t : Fin cfg0.N) (x : S20x384x28.Idx) (k : S200x384x28.Idx)
    (hk0 : (k 0).val = 20 * t.val + (x 0).val) (hk1 : (k 1).val = (x 1).val) (hk2 : (k 2).val = (x 2).val) :
    (iblk m c 2 t : Vec Ideal S20x384x28 .bf16) x = (V m c main_v160 : S200x384x28.Idx → Elt Ideal .bf16) k := by
  obtain ⟨-, -, -, -, -, -, e0, e1, e2, -⟩ := idx_facts t
  unfold iblk
  rw [View.read_apply]
  show V m c main_v160 _ = V m c main_v160 _
  refine congrArg (V m c main_v160) ?_
  funext a
  apply Fin.ext
  match a with
  | ⟨0, _⟩ => show win0_2.index t (0 : Fin 3) * 20 + 1 * (x 0).val = (k 0).val; rw [e0, hk0]; omega
  | ⟨1, _⟩ => show win0_2.index t (1 : Fin 3) * 384 + 1 * (x 1).val = (k 1).val; rw [e1, hk1]; omega
  | ⟨2, _⟩ => show win0_2.index t (2 : Fin 3) * 28 + 1 * (x 2).val = (k 2).val; rw [e2, hk2]; omega

/-! ## What a point writes back -/

/-- The stored block over input blocks that are boxes `20 T + p` of three arrays is the same boxes of the pasted array:
    stated over variables, the input blocks' reads as hypotheses. -/
theorem pay_block (x0 : Vec Ideal S20x28x28 .f32) (x1 : Vec Ideal S20x256x28 .bf16) (x2 : Vec Ideal S20x384x28 .bf16)
    (M : FVec Ideal S200x28x28 .f32) (IH : FVec Ideal S200x256x28 .bf16) (IW : FVec Ideal S200x384x28 .bf16)
    (j : S20x256x384.Idx) (n : Fin 200) (y : Fin 256) (x : Fin 384)
    (h0 : ∀ a b : Fin 28, x0 (ix3 (j 0) a b) = M (ix3 n a b))
    (h1 : ∀ a : Fin 28, x1 (ix3 (j 0) (j 1) a) = IH (ix3 n y a))
    (h2 : ∀ b : Fin 28, x2 (ix3 (j 0) (j 2) b) = IW (ix3 n x b)) :
    k0_pay1 (F := Ideal) x0 x1 x2 j = pasteAt M IH IW n y x := by
  refine (pay_at x0 x1 x2 j).trans ?_
  unfold pasteAt
  refine Finset.sum_congr rfl fun b _ => ?_
  rw [h2 b]
  refine congrArg (· * IW (ix3 n x b)) ?_
  refine Finset.sum_congr rfl fun a _ => ?_
  rw [h1 a, h0 a b]

/-- WHAT POINT `t` WRITES BACK is block `t` of the pasted array of the three arrays as the region finds them. -/
theorem flushed_eq (c : Dev nD) (t : Fin cfg0.N) :
    (dats m 0 c).flushed 3 t = ((cfg0.win 3).blk t).view.read (Elt Ideal)
      (pasteArr (V m c main_v161) (V m c main_v159) (V m c main_v160)) := by
  show (cfg0.win 3).cut (grid0.coords t) ((dats m 0 c).after 3 t) = _
  rw [after0_3]
  unfold out0_3
  rw [View.canon_unit_zero hz3]
  simp only [View.ld_unit_zero (S := S20x28x28) hz3, View.ld_unit_zero (S := S20x256x28) hz3, View.ld_unit_zero (S := S20x384x28) hz3]
  obtain ⟨-, -, -, -, -, -, -, -, -, e0, e1, e2⟩ := idx_facts t
  funext j
  have hj0 : ((((cfg0.win 3).blk t).view.emb j) 0).val = 20 * t.val + (j 0).val := by
    show win0_3.index t (0 : Fin 3) * 20 + 1 * (j 0).val = _; rw [e0]; omega
  have hj1 : ((((cfg0.win 3).blk t).view.emb j) 1).val = (j 1).val := by
    show win0_3.index t (1 : Fin 3) * 256 + 1 * (j 1).val = _; rw [e1]; omega
  have hj2 : ((((cfg0.win 3).blk t).view.emb j) 2).val = (j 2).val := by
    show win0_3.index t (2 : Fin 3) * 384 + 1 * (j 2).val = _; rw [e2]; omega
  show k0_pay1 (F := Ideal) (iblk m c 0 t) (iblk m c 1 t) (iblk m c 2 t) j
    = pasteAt (V m c main_v161) (V m c main_v159) (V m c main_v160) ((((cfg0.win 3).blk t).view.emb j) 0) ((((cfg0.win 3).blk t).view.emb j) 1) ((((cfg0.win 3).blk t).view.emb j) 2)
  exact pay_block (iblk m c 0 t) (iblk m c 1 t) (iblk m c 2 t) (V m c main_v161) (V m c main_v159) (V m c main_v160) j _ _ _
    (fun a b => iblk0_apply m c t _ _ hj0 rfl rfl)
    (fun a => iblk1_apply m c t _ _ hj0 hj1 rfl)
    (fun b => iblk2_apply m c t _ _ hj0 hj2 rfl)

/-! ## The ten blocks cover the array -/

/-- An index of the array is in point `t`'s block iff each coordinate is in the block's range on its axis. -/
theorem mem_blk3 (t : Fin cfg0.N) (i : S200x256x384.Idx) :
    i ∈ ((cfg0.win 3).blk t).view.set ↔ ∀ a : Fin 3, win0_3.index t a * S20x256x384.size a ≤ (i a).val ∧ (i a).val < win0_3.index t a * S20x256x384.size a + S20x256x384.size a := by
  show i ∈ ((View.whole main_v162).slice (win0_3.rect t)).set ↔ _
  rw [View.set_slice_whole, Rect.mem_set_unit]
  exact Iff.rfl

/-- Box `n` is covered by point `n / 20`. -/
theorem cover3 (i : S200x256x384.Idx) :
    ∃ t : Fin cfg0.N, (cfg0.win 3).flush t = true ∧ i ∈ ((cfg0.win 3).blk t).view.set := by
  have hi0 : (i 0).val < 200 := (i 0).isLt
  have hi1 : (i 1).val < 256 := (i 1).isLt
  have hi2 : (i 2).val < 384 := (i 2).isLt
  obtain ⟨t, ht⟩ : ∃ t : Fin cfg0.N, t.val = (i 0).val / 20 :=
    ⟨⟨(i 0).val / 20, by rw [show cfg0.N = 10 from N_0]; omega⟩, rfl⟩
  obtain ⟨-, -, -, -, -, -, -, -, -, e0, e1, e2⟩ := idx_facts t
  refine ⟨t, flush0_3 t, ?_⟩
  rw [mem_blk3]
  intro a
  match a with
  | ⟨0, _⟩ => show win0_3.index t (0 : Fin 3) * 20 ≤ (i 0).val ∧ (i 0).val < win0_3.index t (0 : Fin 3) * 20 + 20; rw [e0, ht]; omega
  | ⟨1, _⟩ => show win0_3.index t (1 : Fin 3) * 256 ≤ (i 1).val ∧ (i 1).val < win0_3.index t (1 : Fin 3) * 256 + 256; rw [e1]; omega
  | ⟨2, _⟩ => show win0_3.index t (2 : Fin 3) * 384 ≤ (i 2).val ∧ (i 2).val < win0_3.index t (2 : Fin 3) * 384 + 384; rw [e2]; omega

/-! ## The array after the region -/

/-- THE ARRAY after the run of the region: the pasted array of the three arrays the region finds. -/
theorem final3 (c : Dev nD) :
    (dats m 0 c).arrAt 3 cfg0.N = pasteArr (V m c main_v161) (V m c main_v159) (V m c main_v160) :=
  (dats m 0 c).arrAt_eq_of_cover 3 (pasteArr (V m c main_v161) (V m c main_v159) (V m c main_v160))
    (fun t _ => flushed_eq m c t) cover3

end Cert.KernelIdeal.KValue

end
-- ==== Proof.KernelValue.lean ====
/- The kernel's value: the canvas the program leaves, as one function of the mask array and the two interpolation
   tables the region finds — the region's array broadcast along a leading unit axis by the one host operation after it. -/
import proofs.«118550_j32074815766904_2_alg».proof.Proof.Gen.KernelIdeal.Frame
import proofs.«118550_j32074815766904_2_alg».proof.Proof.KernelBlocks
import Idealize.ShloMosaic.Lib.Pipeline.Value
import Idealize.ShloMosaic.Lib.Tactic

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

variable (m : (ℓ : Loc nD τ sig) → Buf (Elt Ideal) ℓ) (ρ : Dev nD → PrngReg)

/-- The pasted canvas from the mask array and the two tables: at box `n`, row `y`, column `x` the mask contracted with
    row `y` of the row table along its rows and with row `x` of the column table along its columns. -/
def paste (M : FVec Ideal S200x28x28 .f32) (IH : FVec Ideal S200x256x28 .bf16) (IW : FVec Ideal S200x384x28 .bf16) :
    FVec Ideal S1x200x256x384 .f32 :=
  fun i => ∑ b : Fin 28, (∑ a : Fin 28, IH (ix3 (i 1) (i 2) a) * M (ix3 (i 1) a b)) * IW (ix3 (i 1) (i 3) b)

/-- The canvas at an index is the region's array at the index without the leading unit axis. -/
theorem pasteArr_drop (M : FVec Ideal S200x28x28 .f32) (IH : FVec Ideal S200x256x28 .bf16) (IW : FVec Ideal S200x384x28 .bf16)
    (i : S1x200x256x384.Idx) :
    pasteArr M IH IW (ix3 (i 1) (i 2) (i 3) : S200x256x384.Idx) = paste M IH IW i := rfl

/-- The broadcast along a new leading unit axis, read at an index. -/
theorem bcast_lead (X : FVec Ideal S200x256x384 .f32) (i : S1x200x256x384.Idx) :
    broadcastInDim S1x200x256x384 ![1, 2, 3] bcast_S200x256x384_S1x200x256x384_1_2_3 X i
      = X (ix3 (i 1) (i 2) (i 3) : S200x256x384.Idx) :=
  broadcastInDim_apply _ _ X i (ix3 (i 1) (i 2) (i 3) : S200x256x384.Idx) fun a => by
    match a with
    | ⟨0, _⟩ => show (i 1).val = if (200 : Nat) = 1 then 0 else (i 1).val; exact (if_neg (by decide)).symm
    | ⟨1, _⟩ => show (i 2).val = if (256 : Nat) = 1 then 0 else (i 2).val; exact (if_neg (by decide)).symm
    | ⟨2, _⟩ => show (i 3).val = if (384 : Nat) = 1 then 0 else (i 3).val; exact (if_neg (by decide)).symm

/-- What the host operation after the region leaves in the result: the canvas. -/
theorem tail_eq (c : Dev nD) :
    Pipeline.afterTail₀ cfgs (dats m) 0 (V0 m) [hostOps1] c main_v163
      = paste (V m c main_v161) (V m c main_v159) (V m c main_v160) := by
  have hW : Pipeline.withArrays (cfgs 0).spec c (V0 m c) (fun w => (dats m 0 c).arrAt w (cfgs 0).N) (Proc.devRef .tc main_v162)
      = pasteArr (V m c main_v161) (V m c main_v159) (V m c main_v160) :=
    (Pipeline.withArrays_arr spec0 launch0.win.arr_inj c _ _ 3).trans (final3 m c)
  unfold Pipeline.afterTail₀
  show StableHlo.after hostOps1 _ (Proc.devRef .tc main_v163) = _
  after_results
  rw [hW]
  funext i
  exact (bcast_lead _ i).trans (pasteArr_drop _ _ _ i)

/-- THE RUN, READ: the result array at the canvas of the three arrays the region finds, the arguments unchanged. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v163) = paste (V m c main_v161) (V m c main_v159) (V m c main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v163 (Pipeline.mem_restRefs_of main_v163 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.Tables.lean ====
/-
  The two interpolation tables the kernel's host operations build, as functions of the taps, the weights and the in-window
  flags, read at an index: entry (n, y, a) of the row table is
     ((a = lo[n,y] ? 1 : 0) · (1 − w[n,y]) + (a = hi[n,y] ? 1 : 0) · w[n,y]) · in[n,y],
  and likewise for the columns.
-/
import proofs.«118550_j32074815766904_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Tables

open Cert.KernelIdeal Cert.KernelIdeal.Facts₀ Idealize.ShloMosaic Idealize.ShloMosaic.ValueIdx

/-! ## The row table (extent 256) -/

/-- A [200,256] array repeated along a new last axis of 28 taps. -/
def rowBc {α : Type} (f : S200x256.Idx → α) : S200x256x28.Idx → α :=
  broadcastInDim S200x256x28 ![0, 1, 2] bcast_S200x256x1_S200x256x28_0_1_2
    (broadcastInDim S200x256x1 ![0, 1] bcast_S200x256_S200x256x1_0_1 f)

theorem rowBc_apply {α : Type} (f : S200x256.Idx → α) (n : Fin 200) (y : Fin 256) (a : Fin 28) :
    rowBc f (ix3 n y a) = f (ix2 n y) := by
  unfold rowBc
  rw [broadcastInDim_apply _ bcast_S200x256x1_S200x256x28_0_1_2 _ (ix3 n y a) (ix3 n y (0 : Fin 1)) (fun d => match d with
    | ⟨0, _⟩ => by show n.val = if (200 : Nat) = 1 then 0 else n.val; rw [if_neg (by decide)]
    | ⟨1, _⟩ => by show y.val = if (256 : Nat) = 1 then 0 else y.val; rw [if_neg (by decide)]
    | ⟨2, _⟩ => by show 0 = if (1 : Nat) = 1 then 0 else a.val; rw [if_pos rfl])]
  exact broadcastInDim_apply _ bcast_S200x256_S200x256x1_0_1 f (ix3 n y (0 : Fin 1)) (ix2 n y) (fun d => match d with
    | ⟨0, _⟩ => by show n.val = if (200 : Nat) = 1 then 0 else n.val; rw [if_neg (by decide)]
    | ⟨1, _⟩ => by show y.val = if (256 : Nat) = 1 then 0 else y.val; rw [if_neg (by decide)])

/-- The tap counter 0..27 along the last axis. -/
def rowTap : IVec S200x256x28 32 :=
  broadcastInDim S200x256x28 ![0, 1, 2] bcast_S1x1x28_S200x256x28_0_1_2
    (broadcastInDim S1x1x28 ![2] bcast_S28_S1x1x28_2 (iotaInDim S28 32 0))

theorem rowTap_apply (n : Fin 200) (y : Fin 256) (a : Fin 28) : rowTap (ix3 n y a) = BitVec.ofNat 32 a.val := by
  unfold rowTap
  rw [broadcastInDim_apply _ bcast_S1x1x28_S200x256x28_0_1_2 _ (ix3 n y a) (ix3 (0 : Fin 1) (0 : Fin 1) a) (fun d => match d with
    | ⟨0, _⟩ => by show 0 = if (1 : Nat) = 1 then 0 else n.val; rw [if_pos rfl]
    | ⟨1, _⟩ => by show 0 = if (1 : Nat) = 1 then 0 else y.val; rw [if_pos rfl]
    | ⟨2, _⟩ => by show a.val = if (28 : Nat) = 1 then 0 else a.val; rw [if_neg (by decide)])]
  rw [broadcastInDim_apply _ bcast_S28_S1x1x28_2 _ (ix3 (0 : Fin 1) (0 : Fin 1) a) (ix1 a) (fun d => match d with
    | ⟨0, _⟩ => by show a.val = if (28 : Nat) = 1 then 0 else a.val; rw [if_neg (by decide)])]
  rfl

/-- The in-window flag of a row, as a float, repeated along the taps. -/
def rowFlag (IN : IVec S200x256 1) : FVec Ideal S200x256x28 .f32 :=
  broadcastInDim S200x256x28 ![0, 1, 2] bcast_S200x256x1_S200x256x28_0_1_2
    (uitofp .f32 (broadcastInDim S200x256x1 ![0, 1] bcast_S200x256_S200x256x1_0_1 IN))

theorem rowFlag_apply (IN : IVec S200x256 1) (n : Fin 200) (y : Fin 256) (a : Fin 28) :
    rowFlag IN (ix3 n y a) = (((IN (ix2 n y)).toNat : ℝ) : EReal) := by
  unfold rowFlag
  rw [broadcastInDim_apply _ bcast_S200x256x1_S200x256x28_0_1_2 _ (ix3 n y a) (ix3 n y (0 : Fin 1)) (fun d => match d with
    | ⟨0, _⟩ => by show n.val = if (200 : Nat) = 1 then 0 else n.val; rw [if_neg (by decide)]
    | ⟨1, _⟩ => by show y.val = if (256 : Nat) = 1 then 0 else y.val; rw [if_neg (by decide)]
    | ⟨2, _⟩ => by show 0 = if (1 : Nat) = 1 then 0 else a.val; rw [if_pos rfl])]
  show (((broadcastInDim S200x256x1 ![0, 1] bcast_S200x256_S200x256x1_0_1 IN (ix3 n y (0 : Fin 1))).toNat : ℝ) : EReal) = _
  rw [broadcastInDim_apply _ bcast_S200x256_S200x256x1_0_1 IN (ix3 n y (0 : Fin 1)) (ix2 n y) (fun d => match d with
    | ⟨0, _⟩ => by show n.val = if (200 : Nat) = 1 then 0 else n.val; rw [if_neg (by decide)]
    | ⟨1, _⟩ => by show y.val = if (256 : Nat) = 1 then 0 else y.val; rw [if_neg (by decide)])]

/-- The constant 1 over a [200,256] array. -/
def rowOne : FVec Ideal S200x256 .f32 := broadcastInDim S200x256 ![] bcast_S_S200x256 (constant S_ .f32 0x3F800000#32)

theorem rowOne_apply (i : S200x256.Idx) : rowOne i = Ideal.ofBits .f32 0x3F800000#32 := by
  unfold rowOne
  rw [broadcastInDim_apply _ bcast_S_S200x256 _ i ix0 (fun d => d.elim0)]
  rfl

/-- The interpolation table of the rows: a one-hot row at the lower tap weighted 1 − w plus one at the upper tap weighted w,
    times the in-window flag; narrowed to bf16 (the identity on extended reals). -/
def rowTable (LO HI : IVec S200x256 32) (WT : FVec Ideal S200x256 .f32) (IN : IVec S200x256 1) : FVec Ideal S200x256x28 .bf16 :=
  truncf .bf16 (mulf (addf (mulf (uitofp .f32 (cmpi .eq rowTap (rowBc LO))) (rowBc (subf rowOne WT)))
    (mulf (uitofp .f32 (cmpi .eq rowTap (rowBc HI))) (rowBc WT))) (rowFlag IN)) bitsLt_bf16_f32

theorem rowTable_apply (LO HI : IVec S200x256 32) (WT : FVec Ideal S200x256 .f32) (IN : IVec S200x256 1)
    (n : Fin 200) (y : Fin 256) (a : Fin 28) :
    rowTable LO HI WT IN (ix3 n y a)
      = ((((IntOp.cmpi .eq (BitVec.ofNat 32 a.val) (LO (ix2 n y))).toNat : ℝ) : EReal) * (Ideal.ofBits .f32 0x3F800000#32 - WT (ix2 n y))
          + (((IntOp.cmpi .eq (BitVec.ofNat 32 a.val) (HI (ix2 n y))).toNat : ℝ) : EReal) * WT (ix2 n y))
        * (((IN (ix2 n y)).toNat : ℝ) : EReal) := by
  show ((((IntOp.cmpi .eq (rowTap (ix3 n y a)) (rowBc LO (ix3 n y a))).toNat : ℝ) : EReal) * (rowBc (subf rowOne WT) (ix3 n y a))
          + (((IntOp.cmpi .eq (rowTap (ix3 n y a)) (rowBc HI (ix3 n y a))).toNat : ℝ) : EReal) * (rowBc WT (ix3 n y a)))
        * (rowFlag IN (ix3 n y a)) = _
  rw [rowTap_apply, rowBc_apply, rowBc_apply, rowBc_apply, rowBc_apply, rowFlag_apply]
  show (_ * (rowOne (ix2 n y) - WT (ix2 n y)) + _) * _ = _
  rw [rowOne_apply]

/-! ## The col table (extent 384) -/

/-- A [200,384] array repeated along a new last axis of 28 taps. -/
def colBc {α : Type} (f : S200x384.Idx → α) : S200x384x28.Idx → α :=
  broadcastInDim S200x384x28 ![0, 1, 2] bcast_S200x384x1_S200x384x28_0_1_2
    (broadcastInDim S200x384x1 ![0, 1] bcast_S200x384_S200x384x1_0_1 f)

theorem colBc_apply {α : Type} (f : S200x384.Idx → α) (n : Fin 200) (y : Fin 384) (a : Fin 28) :
    colBc f (ix3 n y a) = f (ix2 n y) := by
  unfold colBc
  rw [broadcastInDim_apply _ bcast_S200x384x1_S200x384x28_0_1_2 _ (ix3 n y a) (ix3 n y (0 : Fin 1)) (fun d => match d with
    | ⟨0, _⟩ => by show n.val = if (200 : Nat) = 1 then 0 else n.val; rw [if_neg (by decide)]
    | ⟨1, _⟩ => by show y.val = if (384 : Nat) = 1 then 0 else y.val; rw [if_neg (by decide)]
    | ⟨2, _⟩ => by show 0 = if (1 : Nat) = 1 then 0 else a.val; rw [if_pos rfl])]
  exact broadcastInDim_apply _ bcast_S200x384_S200x384x1_0_1 f (ix3 n y (0 : Fin 1)) (ix2 n y) (fun d => match d with
    | ⟨0, _⟩ => by show n.val = if (200 : Nat) = 1 then 0 else n.val; rw [if_neg (by decide)]
    | ⟨1, _⟩ => by show y.val = if (384 : Nat) = 1 then 0 else y.val; rw [if_neg (by decide)])

/-- The tap counter 0..27 along the last axis. -/
def colTap : IVec S200x384x28 32 :=
  broadcastInDim S200x384x28 ![0, 1, 2] bcast_S1x1x28_S200x384x28_0_1_2
    (broadcastInDim S1x1x28 ![2] bcast_S28_S1x1x28_2 (iotaInDim S28 32 0))

theorem colTap_apply (n : Fin 200) (y : Fin 384) (a : Fin 28) : colTap (ix3 n y a) = BitVec.ofNat 32 a.val := by
  unfold colTap
  rw [broadcastInDim_apply _ bcast_S1x1x28_S200x384x28_0_1_2 _ (ix3 n y a) (ix3 (0 : Fin 1) (0 : Fin 1) a) (fun d => match d with
    | ⟨0, _⟩ => by show 0 = if (1 : Nat) = 1 then 0 else n.val; rw [if_pos rfl]
    | ⟨1, _⟩ => by show 0 = if (1 : Nat) = 1 then 0 else y.val; rw [if_pos rfl]
    | ⟨2, _⟩ => by show a.val = if (28 : Nat) = 1 then 0 else a.val; rw [if_neg (by decide)])]
  rw [broadcastInDim_apply _ bcast_S28_S1x1x28_2 _ (ix3 (0 : Fin 1) (0 : Fin 1) a) (ix1 a) (fun d => match d with
    | ⟨0, _⟩ => by show a.val = if (28 : Nat) = 1 then 0 else a.val; rw [if_neg (by decide)])]
  rfl

/-- The in-window flag of a col, as a float, repeated along the taps. -/
def colFlag (IN : IVec S200x384 1) : FVec Ideal S200x384x28 .f32 :=
  broadcastInDim S200x384x28 ![0, 1, 2] bcast_S200x384x1_S200x384x28_0_1_2
    (uitofp .f32 (broadcastInDim S200x384x1 ![0, 1] bcast_S200x384_S200x384x1_0_1 IN))

theorem colFlag_apply (IN : IVec S200x384 1) (n : Fin 200) (y : Fin 384) (a : Fin 28) :
    colFlag IN (ix3 n y a) = (((IN (ix2 n y)).toNat : ℝ) : EReal) := by
  unfold colFlag
  rw [broadcastInDim_apply _ bcast_S200x384x1_S200x384x28_0_1_2 _ (ix3 n y a) (ix3 n y (0 : Fin 1)) (fun d => match d with
    | ⟨0, _⟩ => by show n.val = if (200 : Nat) = 1 then 0 else n.val; rw [if_neg (by decide)]
    | ⟨1, _⟩ => by show y.val = if (384 : Nat) = 1 then 0 else y.val; rw [if_neg (by decide)]
    | ⟨2, _⟩ => by show 0 = if (1 : Nat) = 1 then 0 else a.val; rw [if_pos rfl])]
  show (((broadcastInDim S200x384x1 ![0, 1] bcast_S200x384_S200x384x1_0_1 IN (ix3 n y (0 : Fin 1))).toNat : ℝ) : EReal) = _
  rw [broadcastInDim_apply _ bcast_S200x384_S200x384x1_0_1 IN (ix3 n y (0 : Fin 1)) (ix2 n y) (fun d => match d with
    | ⟨0, _⟩ => by show n.val = if (200 : Nat) = 1 then 0 else n.val; rw [if_neg (by decide)]
    | ⟨1, _⟩ => by show y.val = if (384 : Nat) = 1 then 0 else y.val; rw [if_neg (by decide)])]

/-- The constant 1 over a [200,384] array. -/
def colOne : FVec Ideal S200x384 .f32 := broadcastInDim S200x384 ![] bcast_S_S200x384 (constant S_ .f32 0x3F800000#32)

theorem colOne_apply (i : S200x384.Idx) : colOne i = Ideal.ofBits .f32 0x3F800000#32 := by
  unfold colOne
  rw [broadcastInDim_apply _ bcast_S_S200x384 _ i ix0 (fun d => d.elim0)]
  rfl

/-- The interpolation table of the cols: a one-hot row at the lower tap weighted 1 − w plus one at the upper tap weighted w,
    times the in-window flag; narrowed to bf16 (the identity on extended reals). -/
def colTable (LO HI : IVec S200x384 32) (WT : FVec Ideal S200x384 .f32) (IN : IVec S200x384 1) : FVec Ideal S200x384x28 .bf16 :=
  truncf .bf16 (mulf (addf (mulf (uitofp .f32 (cmpi .eq colTap (colBc LO))) (colBc (subf colOne WT)))
    (mulf (uitofp .f32 (cmpi .eq colTap (colBc HI))) (colBc WT))) (colFlag IN)) bitsLt_bf16_f32

theorem colTable_apply (LO HI : IVec S200x384 32) (WT : FVec Ideal S200x384 .f32) (IN : IVec S200x384 1)
    (n : Fin 200) (y : Fin 384) (a : Fin 28) :
    colTable LO HI WT IN (ix3 n y a)
      = ((((IntOp.cmpi .eq (BitVec.ofNat 32 a.val) (LO (ix2 n y))).toNat : ℝ) : EReal) * (Ideal.ofBits .f32 0x3F800000#32 - WT (ix2 n y))
          + (((IntOp.cmpi .eq (BitVec.ofNat 32 a.val) (HI (ix2 n y))).toNat : ℝ) : EReal) * WT (ix2 n y))
        * (((IN (ix2 n y)).toNat : ℝ) : EReal) := by
  show ((((IntOp.cmpi .eq (colTap (ix3 n y a)) (colBc LO (ix3 n y a))).toNat : ℝ) : EReal) * (colBc (subf colOne WT) (ix3 n y a))
          + (((IntOp.cmpi .eq (colTap (ix3 n y a)) (colBc HI (ix3 n y a))).toNat : ℝ) : EReal) * (colBc WT (ix3 n y a)))
        * (colFlag IN (ix3 n y a)) = _
  rw [colTap_apply, colBc_apply, colBc_apply, colBc_apply, colBc_apply, colFlag_apply]
  show (_ * (colOne (ix2 n y) - WT (ix2 n y)) + _) * _ = _
  rw [colOne_apply]

end Cert.KernelIdeal.Tables

end
-- ==== Proof.KernelTables.lean ====
/-
  The three arrays the kernel's region is launched on, as the host operations before it leave them: the masks reshaped to
  [200,28,28], and the row and column interpolation tables of the shared taps, weights and in-window flags.
-/
import proofs.«118550_j32074815766904_2_alg».proof.Proof.Gen.KernelIdeal.Frame
import proofs.«118550_j32074815766904_2_alg».proof.Proof.RefReadP
import proofs.«118550_j32074815766904_2_alg».proof.Proof.Tables
import Idealize.ShloMosaic.Lib.StableHlo.Run

set_option maxRecDepth 16384

noncomputable section

namespace Cert.KernelIdeal.KTables

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The boxes as launched. -/
abbrev boxes (c : Dev nD) : (⟨S200x5, .f32⟩ : BufTy).Contents (Elt Ideal) := m ((c : Thread nD τ).loc main_arg1)
/-- The masks as launched. -/
abbrev masks (c : Dev nD) : (⟨S200x1x28x28, .f32⟩ : BufTy).Contents (Elt Ideal) := m ((c : Thread nD τ).loc main_arg0)

set_option maxHeartbeats 40000000 in
/-- The region finds the masks reshaped to [200,28,28]. -/
theorem V_masks (c : Dev nD) :
    (Gen.V (F := Ideal) m c main_v161 : S200x28x28.Idx → EReal)
      = Cert.ReferenceIdeal.ReadP.val_main_v78 (F := Ideal) (masks m c) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

set_option maxHeartbeats 40000000 in
/-- The region finds the row table of the shared row taps, weight and flag. -/
theorem V_rows (c : Dev nD) :
    (Gen.V (F := Ideal) m c main_v159 : S200x256x28.Idx → EReal)
      = Tables.rowTable (Cert.ReferenceIdeal.ReadP.val_main_v62 (F := Ideal) (boxes m c))
          (Cert.ReferenceIdeal.ReadP.val_main_v69 (F := Ideal) (boxes m c))
          (Cert.ReferenceIdeal.ReadP.val_main_v75 (F := Ideal) (boxes m c))
          (Cert.ReferenceIdeal.ReadP.val_main_v214 (F := Ideal) (boxes m c)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

set_option maxHeartbeats 40000000 in
/-- The region finds the column table of the shared column taps, weight and flag. -/
theorem V_cols (c : Dev nD) :
    (Gen.V (F := Ideal) m c main_v160 : S200x384x28.Idx → EReal)
      = Tables.colTable (Cert.ReferenceIdeal.ReadP.val_main_v65 (F := Ideal) (boxes m c))
          (Cert.ReferenceIdeal.ReadP.val_main_v73 (F := Ideal) (boxes m c))
          (Cert.ReferenceIdeal.ReadP.val_main_v77 (F := Ideal) (boxes m c))
          (Cert.ReferenceIdeal.ReadP.val_main_v229 (F := Ideal) (boxes m c)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

end Cert.KernelIdeal.KTables

end
-- ==== Proof.Finite.lean ====
/-
  From the precondition to the masks: when every float input is finite, every mask entry is a real number.
-/
import proofs.«118550_j32074815766904_2_alg».proof.Pre_finite_inputs
import proofs.«118550_j32074815766904_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

instance : Subsingleton S_.Idx := ⟨fun _ _ => funext fun d => d.elim0⟩

/-- The pattern of +∞. -/
theorem ofBits_inf : Ideal.ofBits .f32 0x7F800000#32 = ⊤ := by
  simp [Ideal.ofBits, Ideal.ieee]

/-- An extended real whose absolute value is below +∞ is a real. -/
theorem real_of_abs_lt (e : EReal) (h : Ideal.cmp .olt (max e (-e)) ⊤ = 1#1) : ∃ r : ℝ, e = (r : EReal) := by
  induction e using EReal.rec with
  | bot => exact absurd h (by simp [Ideal.cmp])
  | coe r => exact ⟨r, rfl⟩
  | top => exact absurd h (by simp [Ideal.cmp])

/-- Under the precondition every mask entry is a real. -/
theorem masks_real (x0 : FVec Ideal S200x1x28x28 .f32) (x1 : FVec Ideal S200x5 .f32) (x2 : IVec S200x1 32)
    (x3 : FVec Ideal S1x133x256x384 .f32) (h : fn (F := Ideal) x0 x1 x2 x3 = (fun _ => 1#1)) (j : S200x1x28x28.Idx) :
    ∃ r : ℝ, x0 j = (r : EReal) := by
  have h0 := congrFun h ValueIdx.ix0
  dsimp only [fn] at h0
  obtain ⟨h8, _⟩ := IntOp.andi_eq_one.1 h0
  obtain ⟨h3, _⟩ := IntOp.andi_eq_one.1 h8
  have hj := Host.reduce_andi_all _ _ _ _ _ h3 j
  apply real_of_abs_lt
  rw [← ofBits_inf]
  exact hj

end Cert.Pre_finite_inputs.Finite

end
-- ==== Proof.LibPointGather.lean ====
/-
  A POINT GATHER AND ITS START INDICES, READ AT AN INDEX.

  Two general facts about shape operations, with no program imported.

  * `gather_point_apply`: `stablehlo.gather` of a rank-3 operand `x : [A, B, C]` at start indices `idx : [P, Q, R, 3]`
    with every operand axis collapsed (offset_dims `[]`, collapsed_slice_dims `[0, 1, 2]`, start_index_map `[0, 1, 2]`,
    index_vector_dim 3, slice_sizes `[1, 1, 1]`) is, at result index `(p, q, r)`, the ONE operand element whose three
    coordinates are the three components `idx[p, q, r, 0..2]` of the start index, each read as a signed integer and
    clamped into its axis (`[0, A − 1]`, `[0, B − 1]`, `[0, C − 1]`): what `x[i0, i1, i2]` of three equal-shape integer
    arrays lowers to.
  * `concatenate3_last_apply_0 / _1 / _2`: the concatenation along the last axis of three arrays `[P, Q, R, 1]`, read at
    `(p, q, r, c)`, is operand `c` at `(p, q, r, 0)`: how those start indices are assembled from the three integer arrays.
-/
import Idealize.ShloMosaic.Lib.ValueIdx
import Idealize.ShloMosaic.Lib.ValueIdxCoords
import Idealize.ShloMosaic.Lib.Pipeline.Value

noncomputable section

namespace Cert.Lib.PointGather

open Idealize.ShloMosaic Idealize.ShloMosaic.ValueIdx

variable {α : Type}

/-! ## The gather -/

/-- The dimension numbers of a point gather: operand `[A, B, C]`, start indices `[P, Q, R, 3]`, result `[P, Q, R]`; their
    conditions `wf` are decided on a program's literal shapes. -/
abbrev pointDims (A B C P Q R : Nat)
    (wf : GatherDims.WF ⟨3, ![A, B, C]⟩ ⟨4, ![P, Q, R, 3]⟩ ⟨3, ![P, Q, R]⟩ [] [0, 1, 2] [] [0, 1, 2] [] 3 ![1, 1, 1]) :
    GatherDims ⟨3, ![A, B, C]⟩ ⟨4, ![P, Q, R, 3]⟩ ⟨3, ![P, Q, R]⟩ where
  offsetDims := []
  collapsedSliceDims := [0, 1, 2]
  operandBatchingDims := []
  startIndicesBatchingDims := []
  startIndexMap := [0, 1, 2]
  indexVectorDim := 3
  sliceSizes := ![1, 1, 1]
  wf := wf

/-- The start-indices index `[p, q, r, c]` at which result index `j = (p, q, r)` reads component `c` of its start index. -/
abbrev pointIdx {P Q R : Nat} (j : (⟨3, ![P, Q, R]⟩ : Shape).Idx) (c : Fin 3) : (⟨4, ![P, Q, R, 3]⟩ : Shape).Idx :=
  fun a => match a with
    | ⟨0, _⟩ => ⟨(j 0).val, (j 0).isLt⟩
    | ⟨1, _⟩ => ⟨(j 1).val, (j 1).isLt⟩
    | ⟨2, _⟩ => ⟨(j 2).val, (j 2).isLt⟩
    | ⟨3, _⟩ => c

/-- On operand axis `a` the point gather's operand index is the clamped component `a` of the start index. -/
theorem pointDims_operandIdx_val {A B C P Q R w : Nat}
    (wf : GatherDims.WF ⟨3, ![A, B, C]⟩ ⟨4, ![P, Q, R, 3]⟩ ⟨3, ![P, Q, R]⟩ [] [0, 1, 2] [] [0, 1, 2] [] 3 ![1, 1, 1])
    (idx : IVec ⟨4, ![P, Q, R, 3]⟩ w) (j : (⟨3, ![P, Q, R]⟩ : Shape).Idx) (a : Fin 3) :
    ((pointDims A B C P Q R wf).operandIdx j idx a).val =
      min (idx (pointIdx j a)).toInt.toNat ((![A, B, C] : Fin 3 → Nat) a - 1) := by
  have hmem : a ∈ (pointDims A B C P Q R wf).startIndexMap := by
    show a ∈ ([0, 1, 2] : List (Fin 3))
    match a with
    | ⟨0, _⟩ => show (0 : Fin 3) ∈ ([0, 1, 2] : List (Fin 3)); decide
    | ⟨1, _⟩ => show (1 : Fin 3) ∈ ([0, 1, 2] : List (Fin 3)); decide
    | ⟨2, _⟩ => show (2 : Fin 3) ∈ ([0, 1, 2] : List (Fin 3)); decide
  show (pointDims A B C P Q R wf).start j idx a + (pointDims A B C P Q R wf).batchCoord j a
    + (pointDims A B C P Q R wf).offCoord j a = _
  rw [GatherDims.batchCoord_eq_zero _ _ _ List.not_mem_nil,
    GatherDims.offCoord_eq_zero _ _ _ (fun h => ((GatherDims.mem_sKept _ _).mp h).1 (by
      show a ∈ ([0, 1, 2] : List (Fin 3))
      exact hmem))]
  simp only [Nat.add_zero]
  unfold GatherDims.start
  rw [dif_pos hmem]
  have hsi : (pointDims A B C P Q R wf).siIdx j ⟨List.idxOf a (pointDims A B C P Q R wf).startIndexMap,
      List.idxOf_lt_length_iff.2 hmem⟩ = pointIdx j a := by
    funext b; refine Fin.ext ?_
    match a, b with
    | ⟨0, _⟩, ⟨0, _⟩ => rfl
    | ⟨0, _⟩, ⟨1, _⟩ => rfl
    | ⟨0, _⟩, ⟨2, _⟩ => rfl
    | ⟨0, _⟩, ⟨3, _⟩ => rfl
    | ⟨1, _⟩, ⟨0, _⟩ => rfl
    | ⟨1, _⟩, ⟨1, _⟩ => rfl
    | ⟨1, _⟩, ⟨2, _⟩ => rfl
    | ⟨1, _⟩, ⟨3, _⟩ => rfl
    | ⟨2, _⟩, ⟨0, _⟩ => rfl
    | ⟨2, _⟩, ⟨1, _⟩ => rfl
    | ⟨2, _⟩, ⟨2, _⟩ => rfl
    | ⟨2, _⟩, ⟨3, _⟩ => rfl
  rw [hsi]
  match a with
  | ⟨0, _⟩ => rfl
  | ⟨1, _⟩ => rfl
  | ⟨2, _⟩ => rfl

/-- THE POINT GATHER READ AT `(p, q, r)`: the operand at the start index `idx[p, q, r, 0..2]`, each component read signed
    and clamped into its axis. -/
theorem gather_point_apply {A B C P Q R w : Nat} (hA : 0 < A) (hB : 0 < B) (hC : 0 < C)
    (wf : GatherDims.WF ⟨3, ![A, B, C]⟩ ⟨4, ![P, Q, R, 3]⟩ ⟨3, ![P, Q, R]⟩ [] [0, 1, 2] [] [0, 1, 2] [] 3 ![1, 1, 1])
    (x : (⟨3, ![A, B, C]⟩ : Shape).Idx → α) (idx : IVec ⟨4, ![P, Q, R, 3]⟩ w) (p : Fin P) (q : Fin Q) (r : Fin R) :
    Host.gather (pointDims A B C P Q R wf) x idx (ix3 p q r) =
      x (ix3 ⟨min (idx (ix4 p q r (0 : Fin 3))).toInt.toNat (A - 1), by omega⟩
             ⟨min (idx (ix4 p q r (1 : Fin 3))).toInt.toNat (B - 1), by omega⟩
             ⟨min (idx (ix4 p q r (2 : Fin 3))).toInt.toNat (C - 1), by omega⟩) := by
  unfold Host.gather
  congr 1
  funext a
  refine Fin.ext ?_
  rw [pointDims_operandIdx_val wf idx (ix3 p q r) a]
  have h4 : ∀ c : Fin 3, pointIdx (ix3 p q r) c = ix4 p q r c := by
    intro c; funext b
    match b with
    | ⟨0, _⟩ => rfl
    | ⟨1, _⟩ => rfl
    | ⟨2, _⟩ => rfl
    | ⟨3, _⟩ => rfl
  rw [h4]
  match a with
  | ⟨0, _⟩ => rfl
  | ⟨1, _⟩ => rfl
  | ⟨2, _⟩ => rfl

/-! ## The start indices: three `[P, Q, R, 1]` arrays joined on the last axis -/

section Concat

variable {P Q R : Nat} (x0 x1 x2 : (⟨4, ![P, Q, R, 1]⟩ : Shape).Idx → α)
  (h : Shape.Concatenates [(⟨4, ![P, Q, R, 1]⟩ : Shape), ⟨4, ![P, Q, R, 1]⟩, ⟨4, ![P, Q, R, 1]⟩] ⟨4, ![P, Q, R, 3]⟩ 3)
  (p : Fin P) (q : Fin Q) (r : Fin R)

/-- Off the joined axis the piece's index `(p, q, r, 0)` has the result index's coordinates. -/
private theorem off_axis (c : Fin 3) (b : Fin 4) (hb : b.cast (rfl : (4 : Nat) = 4) ≠ (3 : Fin 4)) :
    ((ix4 p q r (0 : Fin 1)) b).val = ((ix4 p q r c) (b.cast (rfl : (4 : Nat) = 4))).val := by
  match b with
  | ⟨0, _⟩ => rfl
  | ⟨1, _⟩ => rfl
  | ⟨2, _⟩ => rfl
  | ⟨3, _⟩ => exact absurd rfl hb

/-- The three-piece concatenation at last coordinate 0 is the first piece. -/
theorem concatenate3_last_apply_0 :
    concatenate ⟨4, ![P, Q, R, 3]⟩ 3 [⟨⟨4, ![P, Q, R, 1]⟩, x0⟩, ⟨⟨4, ![P, Q, R, 1]⟩, x1⟩, ⟨⟨4, ![P, Q, R, 1]⟩, x2⟩] h
      (ix4 p q r (0 : Fin 3)) = x0 (ix4 p q r (0 : Fin 1)) :=
  concatenate_apply_piece (a := 3) (xs := [⟨⟨4, ![P, Q, R, 1]⟩, x0⟩, ⟨⟨4, ![P, Q, R, 1]⟩, x1⟩, ⟨⟨4, ![P, Q, R, 1]⟩, x2⟩]) (h := h)
    (j := ix4 p q r (0 : Fin 3)) (k := 0) (hk := by show (0 : Nat) < 3; decide) (s₁ := ⟨4, ![P, Q, R, 1]⟩) (x₁ := x0) (hxk := rfl)
    (hr := rfl) (pre := 0) (hpre := rfl) (i := ix4 p q r (0 : Fin 1)) (hi := off_axis p q r 0) (ha := rfl)

/-- … at last coordinate 1 the second piece … -/
theorem concatenate3_last_apply_1 :
    concatenate ⟨4, ![P, Q, R, 3]⟩ 3 [⟨⟨4, ![P, Q, R, 1]⟩, x0⟩, ⟨⟨4, ![P, Q, R, 1]⟩, x1⟩, ⟨⟨4, ![P, Q, R, 1]⟩, x2⟩] h
      (ix4 p q r (1 : Fin 3)) = x1 (ix4 p q r (0 : Fin 1)) :=
  concatenate_apply_piece (a := 3) (xs := [⟨⟨4, ![P, Q, R, 1]⟩, x0⟩, ⟨⟨4, ![P, Q, R, 1]⟩, x1⟩, ⟨⟨4, ![P, Q, R, 1]⟩, x2⟩]) (h := h)
    (j := ix4 p q r (1 : Fin 3)) (k := 1) (hk := by show (1 : Nat) < 3; decide) (s₁ := ⟨4, ![P, Q, R, 1]⟩) (x₁ := x1) (hxk := rfl)
    (hr := rfl) (pre := 1) (hpre := rfl) (i := ix4 p q r (0 : Fin 1)) (hi := off_axis p q r 1) (ha := rfl)

/-- … and at last coordinate 2 the third. -/
theorem concatenate3_last_apply_2 :
    concatenate ⟨4, ![P, Q, R, 3]⟩ 3 [⟨⟨4, ![P, Q, R, 1]⟩, x0⟩, ⟨⟨4, ![P, Q, R, 1]⟩, x1⟩, ⟨⟨4, ![P, Q, R, 1]⟩, x2⟩] h
      (ix4 p q r (2 : Fin 3)) = x2 (ix4 p q r (0 : Fin 1)) :=
  concatenate_apply_piece (a := 3) (xs := [⟨⟨4, ![P, Q, R, 1]⟩, x0⟩, ⟨⟨4, ![P, Q, R, 1]⟩, x1⟩, ⟨⟨4, ![P, Q, R, 1]⟩, x2⟩]) (h := h)
    (j := ix4 p q r (2 : Fin 3)) (k := 2) (hk := by show (2 : Nat) < 3; decide) (s₁ := ⟨4, ![P, Q, R, 1]⟩) (x₁ := x2) (hxk := rfl)
    (hr := rfl) (pre := 2) (hpre := rfl) (i := ix4 p q r (0 : Fin 1)) (hi := off_axis p q r 2) (ha := rfl)

end Concat

end Cert.Lib.PointGather

end
-- ==== Proof.RefRead.lean ====
/-
  THE REFERENCE'S RESULT READ AT AN INDEX.

  The reference program pastes, for every box `n`, a bilinear resampling of the box's 28×28 mask into a 256×384 canvas.
  Its result at `(0, n, y, x)` is a select on the in-box bits of row `y` and of column `x`: inside, the blend of the FOUR
  mask elements at (low row, low column), (low row, high column), (high row, low column), (high row, high column) with
  the column weight `WX` and the row weight `WY`; outside, zero. Each of the four elements is read by a
  `stablehlo.gather` at start indices assembled by a concatenation of three integer arrays: the box number, a row index
  and a column index, each passed through the index wrap "negative: add the extent" first. The per-operation module
  (RefReadP.lean) reads every operation but those gathers and concatenations at an index; this file
  reads them (through LibPointGather.lean) and chains everything from the result down to the per-row and per-column
  stages, which it leaves as they are:

    `ref_apply`:  result (0, n, y, x) = select (INY &&& INX) (blend of the four `maskAt`) 0.

  The wraps and the gather's clamps are left RAW: no range fact is used here.
-/
import proofs.«118550_j32074815766904_2_alg».proof.Proof.RefReadP
import proofs.«118550_j32074815766904_2_alg».proof.Proof.LibPointGather
import Idealize.ShloMosaic.Lib.ValueIdx
import Idealize.ShloMosaic.Lib.ValueIdxCoords

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Lib.PointGather

/-- The ideal instance: floats are extended reals. -/
local notation "𝕀" => Idealize.ShloMosaic.Ideal

/-! ## Broadcasts of this program's shapes, read at an index given by coordinates -/

section Bcast
variable {α : Type}

/-- `[200, 256, 384] → [200, 256, 384, 1]` at `(n, y, x, 0)`. -/
theorem bcast_unit4 (V : S200x256x384.Idx → α) (n : Fin 200) (y : Fin 256) (x : Fin 384) :
    broadcastInDim S200x256x384x1 ![0, 1, 2] bcast_S200x256x384_S200x256x384x1_0_1_2 V (ix4 n y x (0 : Fin 1)) = V (ix3 n y x) :=
  broadcastInDim_apply _ _ V _ (ix3 n y x) (fun a => match a with
    | ⟨0, _⟩ => rfl
    | ⟨1, _⟩ => rfl
    | ⟨2, _⟩ => rfl)

/-- `[200, 1, 1] → [200, 256, 384]` at `(n, y, x)`. -/
theorem bcast_box (W : S200x1x1.Idx → α) (n : Fin 200) (y : Fin 256) (x : Fin 384) :
    broadcastInDim S200x256x384 ![0, 1, 2] bcast_S200x1x1_S200x256x384_0_1_2 W (ix3 n y x) = W (ix3 n (0 : Fin 1) (0 : Fin 1)) :=
  broadcastInDim_apply _ _ W _ (ix3 n (0 : Fin 1) (0 : Fin 1)) (fun a => match a with
    | ⟨0, _⟩ => rfl
    | ⟨1, _⟩ => rfl
    | ⟨2, _⟩ => rfl)

/-- `[200, 256, 1] → [200, 256, 384]` at `(n, y, x)`. -/
theorem bcast_row (W : S200x256x1.Idx → α) (n : Fin 200) (y : Fin 256) (x : Fin 384) :
    broadcastInDim S200x256x384 ![0, 1, 2] bcast_S200x256x1_S200x256x384_0_1_2 W (ix3 n y x) = W (ix3 n y (0 : Fin 1)) :=
  broadcastInDim_apply _ _ W _ (ix3 n y (0 : Fin 1)) (fun a => match a with
    | ⟨0, _⟩ => rfl
    | ⟨1, _⟩ => rfl
    | ⟨2, _⟩ => rfl)

/-- `[200, 1, 384] → [200, 256, 384]` at `(n, y, x)`. -/
theorem bcast_col (W : S200x1x384.Idx → α) (n : Fin 200) (y : Fin 256) (x : Fin 384) :
    broadcastInDim S200x256x384 ![0, 1, 2] bcast_S200x1x384_S200x256x384_0_1_2 W (ix3 n y x) = W (ix3 n (0 : Fin 1) x) :=
  broadcastInDim_apply _ _ W _ (ix3 n (0 : Fin 1) x) (fun a => match a with
    | ⟨0, _⟩ => rfl
    | ⟨1, _⟩ => rfl
    | ⟨2, _⟩ => rfl)

/-- `[200] → [200, 1, 1]` at `(n, 0, 0)`. -/
theorem bcast_box1 (V : S200.Idx → α) (n : Fin 200) :
    broadcastInDim S200x1x1 ![0] bcast_S200_S200x1x1_0 V (ix3 n (0 : Fin 1) (0 : Fin 1)) = V (ix1 n) :=
  broadcastInDim_apply _ _ V _ (ix1 n) (fun a => match a with
    | ⟨0, _⟩ => rfl)

/-- `[200, 256] → [200, 256, 1]` at `(n, y, 0)`. -/
theorem bcast_row2 (V : S200x256.Idx → α) (n : Fin 200) (y : Fin 256) :
    broadcastInDim S200x256x1 ![0, 1] bcast_S200x256_S200x256x1_0_1 V (ix3 n y (0 : Fin 1)) = V (ix2 n y) :=
  broadcastInDim_apply _ _ V _ (ix2 n y) (fun a => match a with
    | ⟨0, _⟩ => rfl
    | ⟨1, _⟩ => rfl)

/-- `[200, 384] → [200, 1, 384]` at `(n, 0, x)`. -/
theorem bcast_col2 (V : S200x384.Idx → α) (n : Fin 200) (x : Fin 384) :
    broadcastInDim S200x1x384 ![0, 2] bcast_S200x384_S200x1x384_0_2 V (ix3 n (0 : Fin 1) x) = V (ix2 n x) :=
  broadcastInDim_apply _ _ V _ (ix2 n x) (fun a => match a with
    | ⟨0, _⟩ => rfl
    | ⟨1, _⟩ => rfl)

/-- `[200, 256, 384] → [1, 200, 256, 384]` at `(0, n, y, x)`. -/
theorem bcast_out (V : S200x256x384.Idx → α) (n : Fin 200) (y : Fin 256) (x : Fin 384) :
    broadcastInDim S1x200x256x384 ![1, 2, 3] bcast_S200x256x384_S1x200x256x384_1_2_3 V (ix4 (0 : Fin 1) n y x) = V (ix3 n y x) :=
  broadcastInDim_apply _ _ V _ (ix3 n y x) (fun a => match a with
    | ⟨0, _⟩ => rfl
    | ⟨1, _⟩ => rfl
    | ⟨2, _⟩ => rfl)

end Bcast

/-! ## The index wrap and the mask element a gather reads -/

/-- The index wrap the reference applies before a gather: a negative index (read signed) has the extent `K` added. -/
abbrev wrapIdx (K i : BitVec 32) : BitVec 32 := Scalar.select (IntOp.cmpi .slt i 0#32) (IntOp.addi i K) i

/-- The mask element a gather reads for box `n` at row index `u` and column index `v`: each of the three start-index
    components wrapped, read as a signed integer and clamped into its axis. -/
abbrev maskAt {α : Type} (M : S200x28x28.Idx → α) (n : Fin 200) (u v : BitVec 32) : α :=
  M (ix3 ⟨min (wrapIdx 200#32 (BitVec.ofNat 32 n.val)).toInt.toNat 199, by omega⟩
         ⟨min (wrapIdx 28#32 u).toInt.toNat 27, by omega⟩
         ⟨min (wrapIdx 28#32 v).toInt.toNat 27, by omega⟩)

/-! ## A gather of the masks at three concatenated index arrays -/

/-- The program's gather record is the point gather's. -/
theorem gather_dims_eq :
    gather_S200x28x28_S200x256x384x3_S200x256x384_n_012_n_n_012_3_111
      = pointDims 200 28 28 200 256 384 Gen.gather_S200x28x28_S200x256x384x3_S200x256x384_n_012_n_n_012_3_111_wf := rfl

/-- The point gather at the program's shapes, with the three start-index components given up to equality (so that a
    later step may name them without rewriting under the clamp's bound). -/
theorem gather_point_of_eq {α : Type} (M : S200x28x28.Idx → α) (idx : S200x256x384x3.Idx → BitVec 32)
    (n : Fin 200) (y : Fin 256) (x : Fin 384) (a b c : BitVec 32)
    (ha : idx (ix4 n y x (0 : Fin 3)) = a) (hb : idx (ix4 n y x (1 : Fin 3)) = b) (hc : idx (ix4 n y x (2 : Fin 3)) = c) :
    Host.gather (pointDims 200 28 28 200 256 384 Gen.gather_S200x28x28_S200x256x384x3_S200x256x384_n_012_n_n_012_3_111_wf) M idx
        (ix3 n y x)
      = M (ix3 ⟨min a.toInt.toNat 199, by omega⟩ ⟨min b.toInt.toNat 27, by omega⟩ ⟨min c.toInt.toNat 27, by omega⟩) := by
  subst ha hb hc
  exact gather_point_apply (by decide) (by decide) (by decide) _ M idx n y x

/-- The gather at `(n, y, x)` of `M` at the concatenation of three index arrays: `M` at the three arrays' elements at
    `(n, y, x, 0)`, given as `a`, `b`, `c`, each read signed and clamped. -/
theorem gather_concat_apply {α : Type} (M : S200x28x28.Idx → α) (I0 I1 I2 : S200x256x384x1.Idx → BitVec 32)
    (n : Fin 200) (y : Fin 256) (x : Fin 384) (a b c : BitVec 32)
    (ha : I0 (ix4 n y x (0 : Fin 1)) = a) (hb : I1 (ix4 n y x (0 : Fin 1)) = b) (hc : I2 (ix4 n y x (0 : Fin 1)) = c) :
    Host.gather gather_S200x28x28_S200x256x384x3_S200x256x384_n_012_n_n_012_3_111 M
        (concatenate S200x256x384x3 3 [⟨S200x256x384x1, I0⟩, ⟨S200x256x384x1, I1⟩, ⟨S200x256x384x1, I2⟩]
          concatenates_S200x256x384x1_S200x256x384x1_S200x256x384x1_S200x256x384x3_d3) (ix3 n y x)
      = M (ix3 ⟨min a.toInt.toNat 199, by omega⟩ ⟨min b.toInt.toNat 27, by omega⟩ ⟨min c.toInt.toNat 27, by omega⟩) := by
  rw [gather_dims_eq]
  exact gather_point_of_eq M _ n y x a b c
    ((concatenate3_last_apply_0 I0 I1 I2 _ n y x).trans ha) ((concatenate3_last_apply_1 I0 I1 I2 _ n y x).trans hb)
    ((concatenate3_last_apply_2 I0 I1 I2 _ n y x).trans hc)

/-! ## The three index arrays of a gather, at `(n, y, x, 0)` -/

/-- The box-number array: a wrapped `[200, 1, 1]` array broadcast twice. -/
theorem idxN_read (W : S200x1x1.Idx → BitVec 32) (n : Fin 200) (y : Fin 256) (x : Fin 384)
    (hW : W (ix3 n (0 : Fin 1) (0 : Fin 1)) = wrapIdx 200#32 (val_main_v80 (F := 𝕀) (ix3 n (0 : Fin 1) (0 : Fin 1)))) :
    broadcastInDim S200x256x384x1 ![0, 1, 2] bcast_S200x256x384_S200x256x384x1_0_1_2
        (broadcastInDim S200x256x384 ![0, 1, 2] bcast_S200x1x1_S200x256x384_0_1_2 W) (ix4 n y x (0 : Fin 1))
      = wrapIdx 200#32 (BitVec.ofNat 32 n.val) := by
  rw [bcast_unit4, bcast_box, hW]
  have h80 : val_main_v80 (F := 𝕀) (ix3 n (0 : Fin 1) (0 : Fin 1)) = val_main_v79 (F := 𝕀) (ix1 n) := bcast_box1 _ n
  rw [h80]
  rfl

/-- A row-index array: a wrapped `[200, 256, 1]` array broadcast twice; the wrapped array is itself a broadcast of the
    `[200, 256]` stage `V`. -/
theorem idxY_read (W : S200x256x1.Idx → BitVec 32) (V : S200x256.Idx → BitVec 32) (n : Fin 200) (y : Fin 256) (x : Fin 384)
    (hW : W (ix3 n y (0 : Fin 1)) = wrapIdx 28#32
      (broadcastInDim S200x256x1 ![0, 1] bcast_S200x256_S200x256x1_0_1 V (ix3 n y (0 : Fin 1)))) :
    broadcastInDim S200x256x384x1 ![0, 1, 2] bcast_S200x256x384_S200x256x384x1_0_1_2
        (broadcastInDim S200x256x384 ![0, 1, 2] bcast_S200x256x1_S200x256x384_0_1_2 W) (ix4 n y x (0 : Fin 1))
      = wrapIdx 28#32 (V (ix2 n y)) := by
  rw [bcast_unit4, bcast_row, hW, bcast_row2]

/-- A column-index array, likewise over the `[200, 384]` stage `V`. -/
theorem idxX_read (W : S200x1x384.Idx → BitVec 32) (V : S200x384.Idx → BitVec 32) (n : Fin 200) (y : Fin 256) (x : Fin 384)
    (hW : W (ix3 n (0 : Fin 1) x) = wrapIdx 28#32
      (broadcastInDim S200x1x384 ![0, 2] bcast_S200x384_S200x1x384_0_2 V (ix3 n (0 : Fin 1) x))) :
    broadcastInDim S200x256x384x1 ![0, 1, 2] bcast_S200x256x384_S200x256x384x1_0_1_2
        (broadcastInDim S200x256x384 ![0, 1, 2] bcast_S200x1x384_S200x256x384_0_1_2 W) (ix4 n y x (0 : Fin 1))
      = wrapIdx 28#32 (V (ix2 n x)) := by
  rw [bcast_unit4, bcast_col, hW, bcast_col2]

/-! ## The four gathers -/

section Gathers
variable (x0 : (⟨S200x1x28x28, .f32⟩ : BufTy).Contents (Elt 𝕀)) (x1 : (⟨S200x5, .f32⟩ : BufTy).Contents (Elt 𝕀))
  (n : Fin 200) (y : Fin 256) (x : Fin 384)

/-- ONE GATHER, generic in the row-index stage `VY` and the column-index stage `VX` it reads: given the three index
    arrays in the form the program builds them, the gather at `(n, y, x)` is `maskAt` at the two stages' elements. -/
theorem gather_read (WN : S200x1x1.Idx → BitVec 32) (WY : S200x256x1.Idx → BitVec 32) (WX : S200x1x384.Idx → BitVec 32)
    (VY : S200x256.Idx → BitVec 32) (VX : S200x384.Idx → BitVec 32)
    (hN : WN (ix3 n (0 : Fin 1) (0 : Fin 1)) = wrapIdx 200#32 (val_main_v80 (F := 𝕀) (ix3 n (0 : Fin 1) (0 : Fin 1))))
    (hY : WY (ix3 n y (0 : Fin 1)) = wrapIdx 28#32
      (broadcastInDim S200x256x1 ![0, 1] bcast_S200x256_S200x256x1_0_1 VY (ix3 n y (0 : Fin 1))))
    (hX : WX (ix3 n (0 : Fin 1) x) = wrapIdx 28#32
      (broadcastInDim S200x1x384 ![0, 2] bcast_S200x384_S200x1x384_0_2 VX (ix3 n (0 : Fin 1) x))) :
    Host.gather gather_S200x28x28_S200x256x384x3_S200x256x384_n_012_n_n_012_3_111 (val_main_v78 (F := 𝕀) x0)
        (concatenate S200x256x384x3 3
          [⟨S200x256x384x1, broadcastInDim S200x256x384x1 ![0, 1, 2] bcast_S200x256x384_S200x256x384x1_0_1_2
              (broadcastInDim S200x256x384 ![0, 1, 2] bcast_S200x1x1_S200x256x384_0_1_2 WN)⟩,
           ⟨S200x256x384x1, broadcastInDim S200x256x384x1 ![0, 1, 2] bcast_S200x256x384_S200x256x384x1_0_1_2
              (broadcastInDim S200x256x384 ![0, 1, 2] bcast_S200x256x1_S200x256x384_0_1_2 WY)⟩,
           ⟨S200x256x384x1, broadcastInDim S200x256x384x1 ![0, 1, 2] bcast_S200x256x384_S200x256x384x1_0_1_2
              (broadcastInDim S200x256x384 ![0, 1, 2] bcast_S200x1x384_S200x256x384_0_1_2 WX)⟩]
          concatenates_S200x256x384x1_S200x256x384x1_S200x256x384x1_S200x256x384x3_d3) (ix3 n y x)
      = maskAt (val_main_v78 (F := 𝕀) x0) n (VY (ix2 n y)) (VX (ix2 n x)) :=
  gather_concat_apply _ _ _ _ n y x _ _ _ (idxN_read WN n y x hN) (idxY_read WY VY n y x hY) (idxX_read WX VX n y x hX)

/-- %107: low row, low column. -/
theorem v107_read : val_main_v107 (F := 𝕀) x0 x1 (ix3 n y x)
    = maskAt (val_main_v78 (F := 𝕀) x0) n (val_main_v62 (F := 𝕀) x1 (ix2 n y)) (val_main_v65 (F := 𝕀) x1 (ix2 n x)) :=
  gather_read x0 n y x (val_main_v89 (F := 𝕀)) (val_main_v94 (F := 𝕀) x1) (val_main_v99 (F := 𝕀) x1)
    (val_main_v62 (F := 𝕀) x1) (val_main_v65 (F := 𝕀) x1) rfl rfl rfl

/-- %130: low row, high column. -/
theorem v130_read : val_main_v130 (F := 𝕀) x0 x1 (ix3 n y x)
    = maskAt (val_main_v78 (F := 𝕀) x0) n (val_main_v62 (F := 𝕀) x1 (ix2 n y)) (val_main_v73 (F := 𝕀) x1 (ix2 n x)) :=
  gather_read x0 n y x (val_main_v112 (F := 𝕀)) (val_main_v117 (F := 𝕀) x1) (val_main_v122 (F := 𝕀) x1)
    (val_main_v62 (F := 𝕀) x1) (val_main_v73 (F := 𝕀) x1) rfl rfl rfl

/-- %153: high row, low column. -/
theorem v153_read : val_main_v153 (F := 𝕀) x0 x1 (ix3 n y x)
    = maskAt (val_main_v78 (F := 𝕀) x0) n (val_main_v69 (F := 𝕀) x1 (ix2 n y)) (val_main_v65 (F := 𝕀) x1 (ix2 n x)) :=
  gather_read x0 n y x (val_main_v135 (F := 𝕀)) (val_main_v140 (F := 𝕀) x1) (val_main_v145 (F := 𝕀) x1)
    (val_main_v69 (F := 𝕀) x1) (val_main_v65 (F := 𝕀) x1) rfl rfl rfl

/-- %176: high row, high column. -/
theorem v176_read : val_main_v176 (F := 𝕀) x0 x1 (ix3 n y x)
    = maskAt (val_main_v78 (F := 𝕀) x0) n (val_main_v69 (F := 𝕀) x1 (ix2 n y)) (val_main_v73 (F := 𝕀) x1 (ix2 n x)) :=
  gather_read x0 n y x (val_main_v158 (F := 𝕀)) (val_main_v163 (F := 𝕀) x1) (val_main_v168 (F := 𝕀) x1)
    (val_main_v69 (F := 𝕀) x1) (val_main_v73 (F := 𝕀) x1) rfl rfl rfl

/-! ## The weights and the in-box bits, at `(n, y, x)` -/

/-- %181: one minus the column weight. -/
theorem v181_read : val_main_v181 (F := 𝕀) x1 (ix3 n y x)
    = (Idealize.ShloMosaic.Ideal.ofBits .f32 0x3F800000#32 : EReal) - (val_main_v77 (F := 𝕀) x1 (ix2 n x) : EReal) := by
  have h1 : val_main_v181 (F := 𝕀) x1 (ix3 n y x) = val_main_v180 (F := 𝕀) x1 (ix3 n (0 : Fin 1) x) := bcast_col _ n y x
  have h2 : val_main_v177 (F := 𝕀) x1 (ix3 n (0 : Fin 1) x) = val_main_v77 (F := 𝕀) x1 (ix2 n x) := bcast_col2 _ n x
  rw [h1, ← h2]; rfl

/-- %192: one minus the column weight, again. -/
theorem v192_read : val_main_v192 (F := 𝕀) x1 (ix3 n y x)
    = (Idealize.ShloMosaic.Ideal.ofBits .f32 0x3F800000#32 : EReal) - (val_main_v77 (F := 𝕀) x1 (ix2 n x) : EReal) := by
  have h1 : val_main_v192 (F := 𝕀) x1 (ix3 n y x) = val_main_v191 (F := 𝕀) x1 (ix3 n (0 : Fin 1) x) := bcast_col _ n y x
  have h2 : val_main_v177 (F := 𝕀) x1 (ix3 n (0 : Fin 1) x) = val_main_v77 (F := 𝕀) x1 (ix2 n x) := bcast_col2 _ n x
  rw [h1, ← h2]; rfl

/-- %183: the column weight. -/
theorem v183_read : val_main_v183 (F := 𝕀) x1 (ix3 n y x) = val_main_v77 (F := 𝕀) x1 (ix2 n x) := by
  have h1 : val_main_v183 (F := 𝕀) x1 (ix3 n y x) = val_main_v177 (F := 𝕀) x1 (ix3 n (0 : Fin 1) x) := bcast_col _ n y x
  have h2 : val_main_v177 (F := 𝕀) x1 (ix3 n (0 : Fin 1) x) = val_main_v77 (F := 𝕀) x1 (ix2 n x) := bcast_col2 _ n x
  exact h1.trans h2

/-- %194: the column weight, again. -/
theorem v194_read : val_main_v194 (F := 𝕀) x1 (ix3 n y x) = val_main_v77 (F := 𝕀) x1 (ix2 n x) := by
  have h1 : val_main_v194 (F := 𝕀) x1 (ix3 n y x) = val_main_v177 (F := 𝕀) x1 (ix3 n (0 : Fin 1) x) := bcast_col _ n y x
  have h2 : val_main_v177 (F := 𝕀) x1 (ix3 n (0 : Fin 1) x) = val_main_v77 (F := 𝕀) x1 (ix2 n x) := bcast_col2 _ n x
  exact h1.trans h2

/-- %188: one minus the row weight. -/
theorem v188_read : val_main_v188 (F := 𝕀) x1 (ix3 n y x)
    = (Idealize.ShloMosaic.Ideal.ofBits .f32 0x3F800000#32 : EReal) - (val_main_v75 (F := 𝕀) x1 (ix2 n y) : EReal) := by
  have h1 : val_main_v188 (F := 𝕀) x1 (ix3 n y x) = val_main_v187 (F := 𝕀) x1 (ix3 n y (0 : Fin 1)) := bcast_row _ n y x
  have h2 : val_main_v178 (F := 𝕀) x1 (ix3 n y (0 : Fin 1)) = val_main_v75 (F := 𝕀) x1 (ix2 n y) := bcast_row2 _ n y
  rw [h1, ← h2]; rfl

/-- %197: the row weight. -/
theorem v197_read : val_main_v197 (F := 𝕀) x1 (ix3 n y x) = val_main_v75 (F := 𝕀) x1 (ix2 n y) := by
  have h1 : val_main_v197 (F := 𝕀) x1 (ix3 n y x) = val_main_v178 (F := 𝕀) x1 (ix3 n y (0 : Fin 1)) := bcast_row _ n y x
  have h2 : val_main_v178 (F := 𝕀) x1 (ix3 n y (0 : Fin 1)) = val_main_v75 (F := 𝕀) x1 (ix2 n y) := bcast_row2 _ n y
  exact h1.trans h2

/-- %232: the row's in-box bit. -/
theorem v232_read : val_main_v232 (F := 𝕀) x1 (ix3 n y x) = val_main_v214 (F := 𝕀) x1 (ix2 n y) := by
  have h1 : val_main_v232 (F := 𝕀) x1 (ix3 n y x) = val_main_v230 (F := 𝕀) x1 (ix3 n y (0 : Fin 1)) := bcast_row _ n y x
  have h2 : val_main_v230 (F := 𝕀) x1 (ix3 n y (0 : Fin 1)) = val_main_v214 (F := 𝕀) x1 (ix2 n y) := bcast_row2 _ n y
  exact h1.trans h2

/-- %233: the column's in-box bit. -/
theorem v233_read : val_main_v233 (F := 𝕀) x1 (ix3 n y x) = val_main_v229 (F := 𝕀) x1 (ix2 n x) := by
  have h1 : val_main_v233 (F := 𝕀) x1 (ix3 n y x) = val_main_v231 (F := 𝕀) x1 (ix3 n (0 : Fin 1) x) := bcast_col _ n y x
  have h2 : val_main_v231 (F := 𝕀) x1 (ix3 n (0 : Fin 1) x) = val_main_v229 (F := 𝕀) x1 (ix2 n x) := bcast_col2 _ n x
  exact h1.trans h2

/-! ## The result -/

/-- THE REFERENCE'S RESULT AT `(0, n, y, x)`: inside the box (row bit and column bit) the bilinear blend of the four mask
    elements at the low / high row and column indices with the column weight and the row weight; outside, zero. -/
theorem ref_apply : val_main_v236 (F := 𝕀) x0 x1 (ix4 (0 : Fin 1) n y x)
    = Scalar.select ((val_main_v214 (F := 𝕀) x1 (ix2 n y) : BitVec 1) &&& (val_main_v229 (F := 𝕀) x1 (ix2 n x) : BitVec 1))
        ((((maskAt (val_main_v78 (F := 𝕀) x0) n (val_main_v62 (F := 𝕀) x1 (ix2 n y)) (val_main_v65 (F := 𝕀) x1 (ix2 n x)) : EReal)
              * ((Idealize.ShloMosaic.Ideal.ofBits .f32 0x3F800000#32 : EReal) - (val_main_v77 (F := 𝕀) x1 (ix2 n x) : EReal))
            + (maskAt (val_main_v78 (F := 𝕀) x0) n (val_main_v62 (F := 𝕀) x1 (ix2 n y)) (val_main_v73 (F := 𝕀) x1 (ix2 n x)) : EReal)
              * (val_main_v77 (F := 𝕀) x1 (ix2 n x) : EReal))
            * ((Idealize.ShloMosaic.Ideal.ofBits .f32 0x3F800000#32 : EReal) - (val_main_v75 (F := 𝕀) x1 (ix2 n y) : EReal))
          + ((maskAt (val_main_v78 (F := 𝕀) x0) n (val_main_v69 (F := 𝕀) x1 (ix2 n y)) (val_main_v65 (F := 𝕀) x1 (ix2 n x)) : EReal)
              * ((Idealize.ShloMosaic.Ideal.ofBits .f32 0x3F800000#32 : EReal) - (val_main_v77 (F := 𝕀) x1 (ix2 n x) : EReal))
            + (maskAt (val_main_v78 (F := 𝕀) x0) n (val_main_v69 (F := 𝕀) x1 (ix2 n y)) (val_main_v73 (F := 𝕀) x1 (ix2 n x)) : EReal)
              * (val_main_v77 (F := 𝕀) x1 (ix2 n x) : EReal))
            * (val_main_v75 (F := 𝕀) x1 (ix2 n y) : EReal)) : EReal)
        (Idealize.ShloMosaic.Ideal.ofBits .f32 0#32 : EReal) := by
  have e0 : val_main_v236 (F := 𝕀) x0 x1 (ix4 (0 : Fin 1) n y x) = val_main_v235 (F := 𝕀) x0 x1 (ix3 n y x) := bcast_out _ n y x
  rw [e0, val_main_v235_apply, val_main_v234_apply, val_main_v199_apply, val_main_v189_apply, val_main_v198_apply,
    val_main_v185_apply, val_main_v196_apply, val_main_v182_apply, val_main_v184_apply, val_main_v193_apply,
    val_main_v195_apply, v107_read, v130_read, v153_read, v176_read, v181_read, v183_read, v188_read, v192_read, v194_read,
    v197_read, v232_read, v233_read]
  rfl

end Gathers

end Cert.ReferenceIdeal.RefValue

end
-- ==== Proof.LibPasteScalars.lean ====
/-
  Scalar facts on the extended reals and on 32-bit integers for a bilinear resize whose source coordinate is
  max ((d + 1/2) · (28 / h) − 1/2, 0) with d an integer and h = max (h', 1) an integer:
  the float constants 0, 1/2, 1 and 28 as the reals their patterns denote; the source coordinate is a nonnegative
  real; the lower tap fptosi (min 27 (max 0 ⌊s⌋)) lies in [0, 27] as a signed integer, and so does the upper tap
  min (lo + 1) 27; the fractional weight s − lo is a real; for an integer v in [0, 27] the negative-index wrap
  (v < 0 ? v + 28 : v) and the clamp min v 27 leave v alone; a comparison of a counter a < 28 with such a v,
  turned into a float, is the indicator of a = v.
-/
import Idealize.ShloMosaic.PureOps.Ideal.Laws
import Idealize.ShloMosaic.Lib.ValueIdx

noncomputable section

namespace Cert.LibPasteScalars

open Idealize.ShloMosaic

/-- An extended real that is a real number. -/
def IsR (e : EReal) : Prop := ∃ r : ℝ, e = (r : EReal)

theorem isR_coe (r : ℝ) : IsR (r : EReal) := ⟨r, rfl⟩
theorem IsR.add {a b : EReal} (ha : IsR a) (hb : IsR b) : IsR (a + b) := by
  obtain ⟨x, rfl⟩ := ha; obtain ⟨y, rfl⟩ := hb; exact ⟨x + y, (EReal.coe_add x y).symm⟩
theorem IsR.sub {a b : EReal} (ha : IsR a) (hb : IsR b) : IsR (a - b) := by
  obtain ⟨x, rfl⟩ := ha; obtain ⟨y, rfl⟩ := hb; exact ⟨x - y, (EReal.coe_sub x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩

theorem coe_max (x y : ℝ) : max (x : EReal) (y : EReal) = ((max x y : ℝ) : EReal) :=
  (EReal.coe_strictMono.monotone.map_max).symm
theorem coe_min (x y : ℝ) : min (x : EReal) (y : EReal) = ((min x y : ℝ) : EReal) :=
  (EReal.coe_strictMono.monotone.map_min).symm

/-! ## The constants -/

theorem ofBits_zero : Ideal.ofBits .f32 0x00000000#32 = ((0 : ℝ) : EReal) := by
  simp [Ideal.ofBits, Ideal.ieee]
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_28 : Ideal.ofBits .f32 0x41E00000#32 = ((28 : ℝ) : EReal) := by
  simp [Ideal.ofBits, Ideal.ieee, -EReal.coe_mul]; norm_num

/-! ## The source coordinate -/

/-- max (h, 1) as a signed integer is at least 1. -/
theorem maxsi_one_pos (h : BitVec 32) : 1 ≤ (IntOp.maxsi h 1#32).toInt := by
  unfold IntOp.maxsi
  split
  · rename_i hlt
    have := BitVec.slt_iff_toInt_lt.mp hlt
    rw [BitVec.toInt_one (by decide)] at this
    omega
  · rw [BitVec.toInt_one (by decide)]

/-- The source coordinate max ((d + 1/2) · (28 / max (h, 1)) − 1/2, 0) is a nonnegative real. -/
theorem src_real (d h : BitVec 32) :
    ∃ r : ℝ, 0 ≤ r ∧ max ((((d.toInt : ℝ) : EReal) + Ideal.ofBits .f32 0x3F000000#32)
        * Ideal.div (Ideal.ofBits .f32 0x41E00000#32) (((IntOp.maxsi h 1#32).toInt : ℝ) : EReal)
        - Ideal.ofBits .f32 0x3F000000#32) (Ideal.ofBits .f32 0x00000000#32) = (r : EReal) := by
  have hpos := maxsi_one_pos h
  have hne : (((IntOp.maxsi h 1#32).toInt : ℝ)) ≠ 0 := by
    have : (1 : ℝ) ≤ ((IntOp.maxsi h 1#32).toInt : ℝ) := by exact_mod_cast hpos
    linarith
  rw [ofBits_half, ofBits_28, ofBits_zero, Ideal.div_coe hne, ← EReal.coe_add, ← EReal.coe_mul, ← EReal.coe_mul,
    ← EReal.coe_sub, coe_max]
  exact ⟨_, le_max_right _ _, rfl⟩

/-! ## The taps -/

/-- The lower tap of a nonnegative real source coordinate: fptosi (min 27 (max 0 ⌊s⌋)) is in [0, 27]. -/
theorem lo_range (r : ℝ) (hr : 0 ≤ r) :
    0 ≤ (Ideal.fptosi 32 (min (((27#32 : BitVec 32).toInt : ℝ) : EReal)
        (max (((0#32 : BitVec 32).toInt : ℝ) : EReal) (Ideal.liftRound Int.floor (r : EReal))))).toInt
    ∧ (Ideal.fptosi 32 (min (((27#32 : BitVec 32).toInt : ℝ) : EReal)
        (max (((0#32 : BitVec 32).toInt : ℝ) : EReal) (Ideal.liftRound Int.floor (r : EReal))))).toInt ≤ 27 := by
  have h27 : ((27#32 : BitVec 32).toInt) = 27 := by decide
  have h0 : ((0#32 : BitVec 32).toInt) = 0 := by decide
  rw [h27, h0, Ideal.liftRound_coe, coe_max, coe_min]
  unfold Ideal.fptosi
  rw [Ideal.toIntClamped_coe]
  have hfl : (0 : ℤ) ≤ ⌊r⌋ := Int.floor_nonneg.mpr hr
  set q : ℝ := min ((27 : ℤ) : ℝ) (max ((0 : ℤ) : ℝ) ((⌊r⌋ : ℤ) : ℝ)) with hq
  have hq0 : 0 ≤ q := by
    rw [hq]; exact le_min (by norm_num) (le_max_of_le_left (by norm_num))
  have hq27 : q ≤ 27 := by
    rw [hq]; exact (min_le_left _ _).trans (by norm_num)
  rw [if_pos hq0]
  have hf0 : (0 : ℤ) ≤ ⌊q⌋ := Int.floor_nonneg.mpr hq0
  have hf27 : ⌊q⌋ ≤ 27 := by
    have : ⌊q⌋ ≤ ⌊(27 : ℝ)⌋ := Int.floor_le_floor hq27
    simpa using this
  have hval : max (-((2 ^ (32 - 1) : Nat) : ℤ)) (min (((2 ^ (32 - 1) : Nat) : ℤ) - 1) ⌊q⌋) = ⌊q⌋ := by
    have h1 : ((2 ^ (32 - 1) : Nat) : ℤ) = 2147483648 := by norm_num
    rw [h1]; omega
  rw [hval, BitVec.toInt_ofInt_eq_self (by decide) (by norm_num; omega) (by norm_num; omega)]
  exact ⟨hf0, hf27⟩

/-- The upper tap min (lo + 1, 27) of a lower tap in [0, 27] is in [0, 27]. -/
theorem hi_range (v : BitVec 32) (h0 : 0 ≤ v.toInt) (h27 : v.toInt ≤ 27) :
    0 ≤ (IntOp.minsi (IntOp.addi v 1#32) 27#32).toInt ∧ (IntOp.minsi (IntOp.addi v 1#32) 27#32).toInt ≤ 27 := by
  have h1 : (IntOp.addi v 1#32).toInt = v.toInt + 1 := by
    unfold IntOp.addi
    rw [BitVec.toInt_add, BitVec.toInt_one (by decide)]
    exact Int.bmod_eq_of_le (by omega) (by omega)
  have c27 : ((27#32 : BitVec 32).toInt) = 27 := by decide
  unfold IntOp.minsi
  split
  · rename_i hlt
    have := BitVec.slt_iff_toInt_lt.mp hlt
    rw [c27] at this
    omega
  · rw [c27]; omega

/-- An integer in [0, 27] is not negative: the wrap of a negative index leaves it alone. -/
theorem wrap_id (v k : BitVec 32) (h0 : 0 ≤ v.toInt) :
    Scalar.select (IntOp.cmpi .slt v 0#32) (IntOp.addi v k) v = v := by
  have : IntOp.cmpi .slt v 0#32 = 0#1 := by
    unfold IntOp.cmpi
    have hn : v.slt 0#32 = false := by
      rw [BitVec.slt_eq_decide, BitVec.toInt_zero]
      exact decide_eq_false (by omega)
    simp [hn]
  rw [this]; exact ValueIdx.select_zero _ _

/-- The clamp of an index in [0, N) to [0, N − 1] leaves it alone. -/
theorem clamp_id (v : BitVec 32) (N : Nat) (h0 : 0 ≤ v.toInt) (hN : v.toInt < N) :
    min v.toInt.toNat (N - 1) = v.toInt.toNat := by
  have : v.toInt.toNat < N := by omega
  omega

/-- A counter a < 2^31 equals the integer v exactly when it is v's value. -/
theorem onehot (a : Nat) (ha : a < 28) (v : BitVec 32) (h0 : 0 ≤ v.toInt) :
    ((IntOp.cmpi .eq (BitVec.ofNat 32 a) v).toNat : ℝ) = if a = v.toInt.toNat then 1 else 0 := by
  unfold IntOp.cmpi
  by_cases h : a = v.toInt.toNat
  · have hv : BitVec.ofNat 32 a = v := by
      apply BitVec.eq_of_toInt_eq
      rw [BitVec.toInt_ofNat']
      have : ((a : ℤ)).bmod (2 ^ 32) = a := Int.bmod_eq_of_le (by omega) (by omega)
      rw [this]; omega
    rw [if_pos h, hv]; simp
  · have hv : BitVec.ofNat 32 a ≠ v := by
      intro e
      apply h
      rw [← e, BitVec.toInt_ofNat']
      have : ((a : ℤ)).bmod (2 ^ 32) = a := Int.bmod_eq_of_le (by omega) (by omega)
      rw [this]; simp
    rw [if_neg h]; simp [hv]

/-- A tap in [0, 27] as an index of the 28 taps. -/
def tapFin (v : BitVec 32) (h : 0 ≤ v.toInt ∧ v.toInt ≤ 27) : Fin 28 := ⟨v.toInt.toNat, by omega⟩

theorem tapFin_val (v : BitVec 32) (h : 0 ≤ v.toInt ∧ v.toInt ≤ 27) : (tapFin v h).val = v.toInt.toNat := rfl

/-- A box counter n < 200 as a 32-bit integer has the signed value n. -/
theorem toInt_ofNat_small (n : Nat) (h : n < 200) : (BitVec.ofNat 32 n).toInt = n := by
  rw [BitVec.toInt_ofNat']
  exact Int.bmod_eq_of_le (by omega) (by omega)

/-- A one-bit flag as a float is 0 or 1. -/
theorem flag_cases (b : BitVec 1) : b = 0#1 ∨ b = 1#1 := by
  rcases b with ⟨⟨n, hn⟩⟩
  have : n = 0 ∨ n = 1 := by omega
  rcases this with rfl | rfl
  · left; rfl
  · right; rfl

end Cert.LibPasteScalars

end
-- ==== Proof.RefPoint.lean ====
/-
  The reference's blend at a point, over real entries. With every tap in [0, 27] the negative-index wrap and the gather's clamp
  are the identity, so each gathered element is the mask entry at (n, tap, tap); with real weights the select on the two
  in-window bits is the product of the two flags with the four-tap blend, as a real.
-/
import proofs.«118550_j32074815766904_2_alg».proof.ReferenceIdeal
import proofs.«118550_j32074815766904_2_alg».proof.Proof.LibPasteScalars
import Idealize.ShloMosaic.Lib.ValueIdx

noncomputable section

namespace Cert.ReferenceIdeal.RefPoint

open Cert.ReferenceIdeal Idealize.ShloMosaic Idealize.ShloMosaic.ValueIdx Cert.LibPasteScalars

/-- The index wrap: a negative index has the extent added. -/
abbrev wrapI (K i : BitVec 32) : BitVec 32 := Scalar.select (IntOp.cmpi .slt i 0#32) (IntOp.addi i K) i

/-- The element a gather reads for box n at row index u and column index v. -/
abbrev elemAt {α : Type} (M : S200x28x28.Idx → α) (n : Fin 200) (u v : BitVec 32) : α :=
  M (ix3 ⟨min (wrapI 200#32 (BitVec.ofNat 32 n.val)).toInt.toNat 199, by omega⟩
         ⟨min (wrapI 28#32 u).toInt.toNat 27, by omega⟩
         ⟨min (wrapI 28#32 v).toInt.toNat 27, by omega⟩)

/-- With taps in range the gathered element is the mask entry at the taps. -/
theorem elemAt_eq {α : Type} (M : S200x28x28.Idx → α) (n : Fin 200) (u v : BitVec 32)
    (hu : 0 ≤ u.toInt ∧ u.toInt ≤ 27) (hv : 0 ≤ v.toInt ∧ v.toInt ≤ 27) :
    elemAt M n u v = M (ix3 n (tapFin u hu) (tapFin v hv)) := by
  have hn : (BitVec.ofNat 32 n.val).toInt = n.val := toInt_ofNat_small n.val n.isLt
  refine congrArg M (funext fun d => Fin.ext ?_)
  match d with
  | ⟨0, _⟩ =>
    show min (wrapI 200#32 (BitVec.ofNat 32 n.val)).toInt.toNat 199 = n.val
    rw [show wrapI 200#32 (BitVec.ofNat 32 n.val) = BitVec.ofNat 32 n.val from wrap_id _ _ (by omega), hn]
    have := n.isLt
    omega
  | ⟨1, _⟩ =>
    show min (wrapI 28#32 u).toInt.toNat 27 = u.toInt.toNat
    rw [show wrapI 28#32 u = u from wrap_id _ _ hu.1]
    omega
  | ⟨2, _⟩ =>
    show min (wrapI 28#32 v).toInt.toNat 27 = v.toInt.toNat
    rw [show wrapI 28#32 v = v from wrap_id _ _ hv.1]
    omega

/-- The select of the blend on the two in-window bits, as a real. -/
theorem select_blend (M : S200x28x28.Idx → EReal) (Mr : S200x28x28.Idx → ℝ) (hM : ∀ j, M j = ((Mr j : ℝ) : EReal))
    (n : Fin 200) (u u' v v' : BitVec 32)
    (hu : 0 ≤ u.toInt ∧ u.toInt ≤ 27) (hu' : 0 ≤ u'.toInt ∧ u'.toInt ≤ 27)
    (hv : 0 ≤ v.toInt ∧ v.toInt ≤ 27) (hv' : 0 ≤ v'.toInt ∧ v'.toInt ≤ 27)
    (WY WX : EReal) (wy wx : ℝ) (hwy : WY = (wy : EReal)) (hwx : WX = (wx : EReal)) (fy fx : BitVec 1) :
    Scalar.select (fy &&& fx)
        ((elemAt M n u v * (Ideal.ofBits .f32 0x3F800000#32 - WX) + elemAt M n u v' * WX) * (Ideal.ofBits .f32 0x3F800000#32 - WY)
          + (elemAt M n u' v * (Ideal.ofBits .f32 0x3F800000#32 - WX) + elemAt M n u' v' * WX) * WY)
        (Ideal.ofBits .f32 0#32)
      = (((fy.toNat : ℝ) * (fx.toNat : ℝ)
          * ((Mr (ix3 n (tapFin u hu) (tapFin v hv)) * (1 - wx) + Mr (ix3 n (tapFin u hu) (tapFin v' hv')) * wx) * (1 - wy)
            + (Mr (ix3 n (tapFin u' hu') (tapFin v hv)) * (1 - wx) + Mr (ix3 n (tapFin u' hu') (tapFin v' hv')) * wx) * wy) : ℝ) : EReal) := by
  rw [elemAt_eq M n u v hu hv, elemAt_eq M n u v' hu hv', elemAt_eq M n u' v hu' hv, elemAt_eq M n u' v' hu' hv',
    hM, hM, hM, hM, hwy, hwx, ofBits_one, ofBits_zero,
    ← EReal.coe_sub, ← EReal.coe_sub, ← EReal.coe_mul, ← EReal.coe_mul, ← EReal.coe_mul, ← EReal.coe_mul,
    ← EReal.coe_add, ← EReal.coe_add, ← EReal.coe_mul, ← EReal.coe_mul, ← EReal.coe_add]
  rcases flag_cases fy with rfl | rfl <;> rcases flag_cases fx with rfl | rfl
  · rw [show (0#1 &&& 0#1 : BitVec 1) = 0#1 from by decide, select_zero]; simp
  · rw [show (0#1 &&& 1#1 : BitVec 1) = 0#1 from by decide, select_zero]; simp
  · rw [show (1#1 &&& 0#1 : BitVec 1) = 0#1 from by decide, select_zero]; simp
  · rw [show (1#1 &&& 1#1 : BitVec 1) = 1#1 from by decide, select_one]; simp

end Cert.ReferenceIdeal.RefPoint

end
-- ==== Proof.Prefix.lean ====
/-
  The host operations both programs share, read at an index: for a box n and a canvas row y (a canvas column x)
  the source coordinate is a nonnegative real, hence the lower and upper taps lie in [0, 27] and the fractional
  weight is a real. None of this needs the boxes to be finite: the box corners pass through a conversion to
  integers first.
-/
import proofs.«118550_j32074815766904_2_alg».proof.Proof.RefReadP
import proofs.«118550_j32074815766904_2_alg».proof.Proof.LibPasteScalars

noncomputable section

namespace Cert.ReferenceIdeal.Prefix

open Cert.ReferenceIdeal Cert.ReferenceIdeal.ReadP Idealize.ShloMosaic Cert.LibPasteScalars

variable (x1 : (⟨S200x5, .f32⟩ : BufTy).Contents (Elt Ideal))

/-- The row source coordinate is a nonnegative real. -/
theorem srcy_real (i : S200x256.Idx) : ∃ r : ℝ, 0 ≤ r ∧ val_main_v48 (F := Ideal) x1 i = (r : EReal) := by
  rw [val_main_v48_apply, val_main_v46_apply, val_main_v44_apply, val_main_v39_apply, val_main_v31_apply,
    val_main_v38_apply, val_main_cst_3_apply, val_main_v43_apply, val_main_v42_apply, val_main_v41_apply,
    val_main_cst_4_apply, val_main_v40_apply, val_main_v23_apply, val_main_v22_apply, val_main_v21_apply,
    val_main_c_2_apply, val_main_v45_apply, val_main_cst_5_apply, val_main_v47_apply, val_main_cst_6_apply]
  exact src_real _ _

/-- The column source coordinate is a nonnegative real. -/
theorem srcx_real (i : S200x384.Idx) : ∃ r : ℝ, 0 ≤ r ∧ val_main_v59 (F := Ideal) x1 i = (r : EReal) := by
  rw [val_main_v59_apply, val_main_v57_apply, val_main_v55_apply, val_main_v50_apply, val_main_v37_apply,
    val_main_v49_apply, val_main_cst_7_apply, val_main_v54_apply, val_main_v53_apply, val_main_v52_apply,
    val_main_cst_8_apply, val_main_v51_apply, val_main_v17_apply, val_main_v16_apply, val_main_v15_apply,
    val_main_c_0_apply, val_main_v56_apply, val_main_cst_9_apply, val_main_v58_apply, val_main_cst_10_apply]
  exact src_real _ _

/-- Row taps in [0, 27] and a real row weight. -/
theorem row_facts (i : S200x256.Idx) :
    (0 ≤ (val_main_v62 (F := Ideal) x1 i).toInt ∧ (val_main_v62 (F := Ideal) x1 i).toInt ≤ 27)
    ∧ (0 ≤ (val_main_v69 (F := Ideal) x1 i).toInt ∧ (val_main_v69 (F := Ideal) x1 i).toInt ≤ 27)
    ∧ ∃ w : ℝ, val_main_v75 (F := Ideal) x1 i = (w : EReal) := by
  obtain ⟨r, hr0, hr⟩ := srcy_real x1 i
  have hlo : 0 ≤ (val_main_v62 (F := Ideal) x1 i).toInt ∧ (val_main_v62 (F := Ideal) x1 i).toInt ≤ 27 := by
    rw [val_main_v62_apply, val_main_v61_apply, val_main_call0_v4_apply, val_main_call0_v3_apply, val_main_c_12_apply,
      val_main_call0_v2_apply, val_main_call0_v1_apply, val_main_call0_v0_apply, val_main_c_11_apply,
      val_main_v60_apply, hr]
    exact lo_range r hr0
  refine ⟨hlo, ?_, ?_⟩
  · rw [val_main_v69_apply, val_main_v67_apply, val_main_v66_apply, val_main_c_15_apply, val_main_v68_apply,
      val_main_c_16_apply]
    exact hi_range _ hlo.1 hlo.2
  · rw [val_main_v75_apply, val_main_v74_apply, hr]
    exact ⟨r - ((val_main_v62 (F := Ideal) x1 i).toInt : ℝ), (EReal.coe_sub _ _).symm⟩

/-- Column taps in [0, 27] and a real column weight. -/
theorem col_facts (i : S200x384.Idx) :
    (0 ≤ (val_main_v65 (F := Ideal) x1 i).toInt ∧ (val_main_v65 (F := Ideal) x1 i).toInt ≤ 27)
    ∧ (0 ≤ (val_main_v73 (F := Ideal) x1 i).toInt ∧ (val_main_v73 (F := Ideal) x1 i).toInt ≤ 27)
    ∧ ∃ w : ℝ, val_main_v77 (F := Ideal) x1 i = (w : EReal) := by
  obtain ⟨r, hr0, hr⟩ := srcx_real x1 i
  have hlo : 0 ≤ (val_main_v65 (F := Ideal) x1 i).toInt ∧ (val_main_v65 (F := Ideal) x1 i).toInt ≤ 27 := by
    rw [val_main_v65_apply, val_main_v64_apply, val_main_call1_v4_apply, val_main_call1_v3_apply, val_main_c_14_apply,
      val_main_call1_v2_apply, val_main_call1_v1_apply, val_main_call1_v0_apply, val_main_c_13_apply,
      val_main_v63_apply, hr]
    exact lo_range r hr0
  refine ⟨hlo, ?_, ?_⟩
  · rw [val_main_v73_apply, val_main_v71_apply, val_main_v70_apply, val_main_c_17_apply, val_main_v72_apply,
      val_main_c_18_apply]
    exact hi_range _ hlo.1 hlo.2
  · rw [val_main_v77_apply, val_main_v76_apply, hr]
    exact ⟨r - ((val_main_v65 (F := Ideal) x1 i).toInt : ℝ), (EReal.coe_sub _ _).symm⟩

end Cert.ReferenceIdeal.Prefix

end
-- ==== Proof.Bilinear.lean ====
/-
  The algebra that joins the two programs. With one-hot rows
     H a = ((a = yl ? 1 : 0) · p + (a = yh ? 1 : 0) · q) · fy      and      W b = ((b = xl ? 1 : 0) · r + (b = xh ? 1 : 0) · s) · fx
  over 28 taps, the double product  Σ_b (Σ_a H a · M a b) · W b  is
     fy · fx · ((M yl xl · r + M yl xh · s) · p + (M yh xl · r + M yh xh · s) · q):
  the four-tap bilinear blend. Over the reals this is distributivity; on the extended reals it holds when every entry is a
  real, since the coercion commutes with finite sums and products.
-/
import Mathlib.Data.EReal.Operations
import Mathlib.Algebra.BigOperators.Ring.Finset
import Mathlib.Tactic.Ring

noncomputable section

namespace Cert.Bilinear

open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The blend over the reals. -/
theorem blend_real (M : Fin 28 → Fin 28 → ℝ) (yl yh xl xh : Fin 28) (p q r s fy fx : ℝ) :
    ∑ b : Fin 28, (∑ a : Fin 28, (((if a = yl then 1 else 0) * p + (if a = yh then 1 else 0) * q) * fy) * M a b)
        * (((if b = xl then 1 else 0) * r + (if b = xh then 1 else 0) * s) * fx)
      = fy * fx * ((M yl xl * r + M yl xh * s) * p + (M yh xl * r + M yh xh * s) * q) := by
  have inner : ∀ b : Fin 28,
      ∑ a : Fin 28, (((if a = yl then 1 else 0) * p + (if a = yh then 1 else 0) * q) * fy) * M a b
        = fy * (p * M yl b + q * M yh b) := by
    intro b
    simp only [add_mul, ite_mul, one_mul, zero_mul, Finset.sum_add_distrib, Finset.sum_ite_eq', Finset.mem_univ, if_true]
    ring
  simp only [inner]
  simp only [mul_add, add_mul, mul_ite, ite_mul, one_mul, zero_mul, mul_one, mul_zero, Finset.sum_add_distrib,
    Finset.sum_ite_eq', Finset.mem_univ, if_true]
  ring

/-- The blend on the extended reals, every entry a real. -/
theorem blend (H : Fin 28 → EReal) (Mx : Fin 28 → Fin 28 → EReal) (W : Fin 28 → EReal)
    (M : Fin 28 → Fin 28 → ℝ) (yl yh xl xh : Fin 28) (p q r s fy fx : ℝ)
    (hH : ∀ a, H a = (((((if a = yl then 1 else 0) * p + (if a = yh then 1 else 0) * q) * fy : ℝ)) : EReal))
    (hM : ∀ a b, Mx a b = ((M a b : ℝ) : EReal))
    (hW : ∀ b, W b = (((((if b = xl then 1 else 0) * r + (if b = xh then 1 else 0) * s) * fx : ℝ)) : EReal)) :
    ∑ b : Fin 28, (∑ a : Fin 28, H a * Mx a b) * W b
      = ((fy * fx * ((M yl xl * r + M yl xh * s) * p + (M yh xl * r + M yh xh * s) * q) : ℝ) : EReal) := by
  rw [← blend_real M yl yh xl xh p q r s fy fx, coe_sum]
  refine Finset.sum_congr rfl fun b _ => ?_
  rw [EReal.coe_mul, coe_sum, hW b]
  congr 1
  refine Finset.sum_congr rfl fun a _ => ?_
  rw [EReal.coe_mul, hH a, hM a b]

end Cert.Bilinear

end
-- ==== Proof.KernelPoint.lean ====
/- One entry of the pasted canvas when the two tables are one-hot interpolation rows: the four-tap bilinear blend of
   the box's mask, times the two in-window flags. -/
import proofs.«118550_j32074815766904_2_alg».proof.Proof.KernelValue
import proofs.«118550_j32074815766904_2_alg».proof.Proof.Tables
import proofs.«118550_j32074815766904_2_alg».proof.Proof.LibPasteScalars
import proofs.«118550_j32074815766904_2_alg».proof.Proof.Bilinear

noncomputable section

open scoped BigOperators

namespace Cert.KernelIdeal.KPoint

open Cert.KernelIdeal Idealize.ShloMosaic Idealize.ShloMosaic.ValueIdx
open Cert.LibPasteScalars (tapFin)

/-- The indicator of "the counter's value is the tap's" is the indicator of "the counter is the tap". -/
theorem ind_tap (a : Fin 28) (v : BitVec 32) (h : 0 ≤ v.toInt ∧ v.toInt ≤ 27) :
    (if a.val = v.toInt.toNat then (1 : ℝ) else 0) = if a = tapFin v h then 1 else 0 :=
  if_congr (Fin.ext_iff (a := a) (b := tapFin v h)).symm rfl rfl

/-- One table entry is a real: the one-hot row at the lower tap weighted 1 − w plus the one at the upper tap weighted w,
    times the flag. -/
theorem entry_real (a : Fin 28) (lo hi : BitVec 32) (hlo : 0 ≤ lo.toInt ∧ lo.toInt ≤ 27) (hhi : 0 ≤ hi.toInt ∧ hi.toInt ≤ 27)
    (w : EReal) (wr : ℝ) (hw : w = (wr : EReal)) (f : BitVec 1) :
    ((((IntOp.cmpi .eq (BitVec.ofNat 32 a.val) lo).toNat : ℝ) : EReal) * (Ideal.ofBits .f32 0x3F800000#32 - w)
        + (((IntOp.cmpi .eq (BitVec.ofNat 32 a.val) hi).toNat : ℝ) : EReal) * w) * (((f.toNat : ℝ)) : EReal)
      = (((((if a = tapFin lo hlo then 1 else 0) * (1 - wr) + (if a = tapFin hi hhi then 1 else 0) * wr) * (f.toNat : ℝ) : ℝ)) : EReal) := by
  rw [LibPasteScalars.onehot a.val a.isLt lo hlo.1, LibPasteScalars.onehot a.val a.isLt hi hhi.1, LibPasteScalars.ofBits_one, hw,
    ind_tap a lo hlo, ind_tap a hi hhi,
    ← EReal.coe_sub, ← EReal.coe_mul, ← EReal.coe_mul, ← EReal.coe_add, ← EReal.coe_mul]

/-- THE ENTRY of the canvas at box `n`, row `y`, column `x`, for tables built from taps in [0, 27], real weights and
    in-window flags over a real mask: the mask's four taps blended along the columns first, then along the rows, times
    the two flags. -/
theorem kernel_point (M : FVec Ideal S200x28x28 .f32) (LO HI : IVec S200x256 32) (WT : FVec Ideal S200x256 .f32) (IN : IVec S200x256 1)
    (LO' HI' : IVec S200x384 32) (WT' : FVec Ideal S200x384 .f32) (IN' : IVec S200x384 1) (n : Fin 200) (y : Fin 256) (x : Fin 384)
    (Mr : S200x28x28.Idx → ℝ) (hM : ∀ j, M j = ((Mr j : ℝ) : EReal))
    (hlo : 0 ≤ (LO (ix2 n y)).toInt ∧ (LO (ix2 n y)).toInt ≤ 27) (hhi : 0 ≤ (HI (ix2 n y)).toInt ∧ (HI (ix2 n y)).toInt ≤ 27)
    (wy : ℝ) (hwy : WT (ix2 n y) = (wy : EReal))
    (hlo' : 0 ≤ (LO' (ix2 n x)).toInt ∧ (LO' (ix2 n x)).toInt ≤ 27) (hhi' : 0 ≤ (HI' (ix2 n x)).toInt ∧ (HI' (ix2 n x)).toInt ≤ 27)
    (wx : ℝ) (hwx : WT' (ix2 n x) = (wx : EReal)) :
    KValue.paste M (Tables.rowTable LO HI WT IN) (Tables.colTable LO' HI' WT' IN') (ix4 (0 : Fin 1) n y x)
      = (((((IN (ix2 n y)).toNat : ℝ) * ((IN' (ix2 n x)).toNat : ℝ)
          * ((Mr (ix3 n (tapFin (LO (ix2 n y)) hlo) (tapFin (LO' (ix2 n x)) hlo')) * (1 - wx)
                + Mr (ix3 n (tapFin (LO (ix2 n y)) hlo) (tapFin (HI' (ix2 n x)) hhi')) * wx) * (1 - wy)
              + (Mr (ix3 n (tapFin (HI (ix2 n y)) hhi) (tapFin (LO' (ix2 n x)) hlo')) * (1 - wx)
                + Mr (ix3 n (tapFin (HI (ix2 n y)) hhi) (tapFin (HI' (ix2 n x)) hhi')) * wx) * wy)) : ℝ) : EReal) := by
  show ∑ b : Fin 28, (∑ a : Fin 28, Tables.rowTable LO HI WT IN (ix3 n y a) * M (ix3 n a b))
      * Tables.colTable LO' HI' WT' IN' (ix3 n x b) = _
  exact Bilinear.blend (fun a => Tables.rowTable LO HI WT IN (ix3 n y a)) (fun a b => M (ix3 n a b))
    (fun b => Tables.colTable LO' HI' WT' IN' (ix3 n x b)) (fun a b => Mr (ix3 n a b))
    (tapFin (LO (ix2 n y)) hlo) (tapFin (HI (ix2 n y)) hhi) (tapFin (LO' (ix2 n x)) hlo') (tapFin (HI' (ix2 n x)) hhi')
    (1 - wy) wy (1 - wx) wx ((IN (ix2 n y)).toNat : ℝ) ((IN' (ix2 n x)).toNat : ℝ)
    (fun a => (Tables.rowTable_apply LO HI WT IN n y a).trans
      (entry_real a (LO (ix2 n y)) (HI (ix2 n y)) hlo hhi (WT (ix2 n y)) wy hwy (IN (ix2 n y))))
    (fun a b => hM (ix3 n a b))
    (fun b => (Tables.colTable_apply LO' HI' WT' IN' n x b).trans
      (entry_real b (LO' (ix2 n x)) (HI' (ix2 n x)) hlo' hhi' (WT' (ix2 n x)) wx hwx (IN' (ix2 n x))))

end Cert.KernelIdeal.KPoint

end
-- ==== Proof.Bridge.lean ====
/-
  The two programs' results are one array. At every point (0, n, y, x) the kernel's double product of the one-hot row table,
  the mask and the one-hot column table, and the reference's select of the four-tap blend, are the same real number:
  in-window flags times ((M[yl,xl](1−wx) + M[yl,xh]wx)(1−wy) + (M[yh,xl](1−wx) + M[yh,xh]wx)wy), with the taps yl, yh, xl, xh in
  [0, 27] and the weights wy, wx real (the shared host operations), and the mask entries real (the precondition).
-/
import proofs.«118550_j32074815766904_2_alg».proof.Proof.RefRead
import proofs.«118550_j32074815766904_2_alg».proof.Proof.RefPoint
import proofs.«118550_j32074815766904_2_alg».proof.Proof.Prefix
import proofs.«118550_j32074815766904_2_alg».proof.Proof.Tables
import proofs.«118550_j32074815766904_2_alg».proof.Proof.KernelPoint

noncomputable section

namespace Cert.Bridge

open Idealize.ShloMosaic Idealize.ShloMosaic.ValueIdx Cert.ReferenceIdeal

/-- The pasted canvas of the kernel's tables is the reference's result, when every mask entry is a real. -/
theorem result_eq (x0 : (⟨S200x1x28x28, .f32⟩ : BufTy).Contents (Elt Ideal)) (x1 : (⟨S200x5, .f32⟩ : BufTy).Contents (Elt Ideal))
    (hfin : ∀ j, ∃ r : ℝ, x0 j = (r : EReal)) :
    ReadP.val_main_v236 (F := Ideal) x0 x1
      = Cert.KernelIdeal.KValue.paste (ReadP.val_main_v78 (F := Ideal) x0)
          (Cert.KernelIdeal.Tables.rowTable (ReadP.val_main_v62 (F := Ideal) x1) (ReadP.val_main_v69 (F := Ideal) x1)
            (ReadP.val_main_v75 (F := Ideal) x1) (ReadP.val_main_v214 (F := Ideal) x1))
          (Cert.KernelIdeal.Tables.colTable (ReadP.val_main_v65 (F := Ideal) x1) (ReadP.val_main_v73 (F := Ideal) x1)
            (ReadP.val_main_v77 (F := Ideal) x1) (ReadP.val_main_v229 (F := Ideal) x1)) := by
  funext i
  obtain ⟨n, y, x, rfl⟩ : ∃ (n : Fin 200) (y : Fin 256) (x : Fin 384), i = ix4 (0 : Fin 1) n y x :=
    ⟨i 1, i 2, i 3, (eq_ix4 i).trans (congrArg (fun a : Fin 1 => ix4 a (i 1) (i 2) (i 3)) (Fin.eq_zero (i 0)))⟩
  have hMreal : ∀ j, ∃ r : ℝ, ReadP.val_main_v78 (F := Ideal) x0 j = (r : EReal) := fun j => by
    rw [ReadP.val_main_v78_apply]; exact hfin _
  choose Mr hMr using hMreal
  obtain ⟨hlo, hhi, wy, hwy⟩ := Prefix.row_facts x1 (ix2 n y)
  obtain ⟨hlo', hhi', wx, hwx⟩ := Prefix.col_facts x1 (ix2 n x)
  rw [Cert.KernelIdeal.KPoint.kernel_point _ _ _ _ _ _ _ _ _ n y x Mr hMr hlo hhi wy hwy hlo' hhi' wx hwx,
    RefValue.ref_apply x0 x1 n y x]
  exact RefPoint.select_blend _ Mr hMr n _ _ _ _ hlo hhi hlo' hhi' _ _ wy wx hwy hwx _ _

end Cert.Bridge

end
-- ==== Proof.lean ====
/-
  Pasting 200 bilinearly resized 28×28 masks into a [1, 200, 256, 384] canvas: a kernel that multiplies each mask by a one-hot
  row table and a one-hot column table (two batched matrix products per block of 20 boxes) against a reference that gathers four
  taps per pixel and blends them.

  The three frames: the kernel's two are the generated frame certificates; the reference's is its run with the result dropped.
  The idealization rewrote nothing, so it is preserved trivially. The value claim: the kernel's run leaves the canvas at
  paste M IH IW, entry (0,n,y,x) = Σ_b (Σ_a IH[n,y,a]·M[n,a,b])·IW[n,x,b], of the three arrays its region is launched on; those
  arrays are the reshaped masks and the tables of the taps, weights and in-window flags both programs compute by the same host
  operations; and with taps in [0, 27], real weights and real mask entries (the precondition) the double product collapses to the
  four-tap blend times the two in-window flags, which is the reference's select.
-/
import proofs.«118550_j32074815766904_2_alg».proof.Defs
import proofs.«118550_j32074815766904_2_alg».proof.Proof.Gen.Kernel
import proofs.«118550_j32074815766904_2_alg».proof.Proof.Gen.Kernel.Frame
import proofs.«118550_j32074815766904_2_alg».proof.Proof.Gen.KernelIdeal
import proofs.«118550_j32074815766904_2_alg».proof.Proof.Gen.KernelIdeal.Frame
import proofs.«118550_j32074815766904_2_alg».proof.Proof.Gen.ReferenceIdeal
import proofs.«118550_j32074815766904_2_alg».proof.Proof.Gen.Pre_finite_inputs
import proofs.«118550_j32074815766904_2_alg».proof.Proof.RefRunP
import proofs.«118550_j32074815766904_2_alg».proof.Proof.RefReadP
import proofs.«118550_j32074815766904_2_alg».proof.Proof.KernelValue
import proofs.«118550_j32074815766904_2_alg».proof.Proof.KernelTables
import proofs.«118550_j32074815766904_2_alg».proof.Proof.Finite
import proofs.«118550_j32074815766904_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the canvas at the paste of the kernel's three launch arrays. -/
theorem algebraic : Cert.algebraic_KernelIdeal_ReferenceIdeal := by
  intro m ρ m' ρ' hpre hagree
  refine ⟨fun c => Cert.KernelIdeal.KValue.paste (Cert.KernelIdeal.Gen.V m c Cert.KernelIdeal.main_v161)
      (Cert.KernelIdeal.Gen.V m c Cert.KernelIdeal.main_v159) (Cert.KernelIdeal.Gen.V m c Cert.KernelIdeal.main_v160),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  show _ = Cert.KernelIdeal.KValue.paste _ _ _
  rw [Cert.ReferenceIdeal.ReadP.val_main_v236_eq, (hagree c).1, (hagree c).2.1,
    Cert.KernelIdeal.KTables.V_masks, Cert.KernelIdeal.KTables.V_rows, Cert.KernelIdeal.KTables.V_cols]
  exact Cert.Bridge.result_eq _ _ (Cert.Pre_finite_inputs.Finite.masks_real _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
